-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 116
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S100000x128, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x128, .f32⟩
  | .hbm, ⟨53, _⟩ => ⟨S1700000x1, .f32⟩
  | .hbm, ⟨54, _⟩ => ⟨S1700000x128, .f32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x128, .f32⟩
  | .hbm, ⟨71, _⟩ => ⟨S1700000x1, .f32⟩
  | .hbm, ⟨72, _⟩ => ⟨S1700000x128, .f32⟩
  | .hbm, ⟨73, _⟩ => ⟨S1700000x128, .f32⟩
  | .hbm, ⟨74, _⟩ => ⟨S_, .f32⟩
  | .hbm, ⟨75, _⟩ => ⟨S100000x128, .f32⟩
  | .hbm, ⟨76, _⟩ => ⟨S1700000x1, .i32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000x128, .f32⟩
  | .hbm, ⟨89, _⟩ => ⟨S1700000x1, .f32⟩
  | .hbm, ⟨90, _⟩ => ⟨S1700000x128, .f32⟩
  | .hbm, ⟨91, _⟩ => ⟨S1700000x128, .f32⟩
  | .hbm, ⟨92, _⟩ => ⟨S_, .f32⟩
  | .hbm, ⟨93, _⟩ => ⟨S100000x128, .f32⟩
  | .hbm, ⟨94, _⟩ => ⟨S1700000x1, .i32⟩
  | .hbm, ⟨95, _⟩ => ⟨S100000x128, .f32⟩
  | .hbm, ⟨96, _⟩ => ⟨S1x128, .f32⟩
  | .hbm, ⟨97, _⟩ => ⟨S100000x64, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000x64, .f32⟩
  | .hbm, ⟨107, _⟩ => ⟨S1700000x1, .f32⟩
  | .hbm, ⟨108, _⟩ => ⟨S1700000x64, .f32⟩
  | .hbm, ⟨109, _⟩ => ⟨S1700000x64, .f32⟩
  | .hbm, ⟨110, _⟩ => ⟨S_, .f32⟩
  | .hbm, ⟨111, _⟩ => ⟨S100000x64, .f32⟩
  | .hbm, ⟨112, _⟩ => ⟨S1700000x1, .i32⟩
  | .hbm, ⟨113, _⟩ => ⟨S100000x64, .f32⟩
  | .hbm, ⟨114, _⟩ => ⟨S1x64, .f32⟩
  | .hbm, ⟨115, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S128x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S1x128, .f32⟩
  | .local _ .vmem, ⟨20, _⟩ => ⟨S128x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_7 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_10 : Ref sig .tc := ⟨.hbm, 80, rfl⟩
abbrev main_v58 : Ref sig .tc := ⟨.hbm, 81, rfl⟩
abbrev main_v59 : Ref sig .tc := ⟨.hbm, 82, rfl⟩
abbrev main_c_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_13 : Ref sig .tc := ⟨.hbm, 98, rfl⟩
abbrev main_v73 : Ref sig .tc := ⟨.hbm, 99, rfl⟩
abbrev main_v74 : Ref sig .tc := ⟨.hbm, 100, rfl⟩
abbrev main_c_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_15 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v70) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v85) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v87) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S100000, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S100000x128, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000x128, .f32⟩
  | 53 => ⟨S1700000x1, .f32⟩
  | 54 => ⟨S1700000x128, .f32⟩
  | 55 => ⟨S1700000x128, .f32⟩
  | 56 => ⟨S_, .f32⟩
  | 57 => ⟨S100000x128, .f32⟩
  | 58 => ⟨S1700000x1, .i32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S100000x128, .f32⟩
  | 65 => ⟨S100000x128, .f32⟩
  | 66 => ⟨S100000x128, .f32⟩
  | 67 => ⟨S_, .i32⟩
  | 68 => ⟨S1700000, .i32⟩
  | 69 => ⟨S1700000, .i1⟩
  | 70 => ⟨S_, .i32⟩
  | 71 => ⟨S1700000, .i32⟩
  | 72 => ⟨S1700000, .i32⟩
  | 73 => ⟨S1700000, .i32⟩
  | 74 => ⟨S1700000x1, .i32⟩
  | 75 => ⟨S1700000x128, .f32⟩
  | 76 => ⟨S1700000x1, .f32⟩
  | 77 => ⟨S1700000x128, .f32⟩
  | 78 => ⟨S1700000x128, .f32⟩
  | 79 => ⟨S_, .f32⟩
  | 80 => ⟨S100000x128, .f32⟩
  | 81 => ⟨S1700000x1, .i32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S100000x128, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000x128, .f32⟩
  | 99 => ⟨S1700000x1, .f32⟩
  | 100 => ⟨S1700000x128, .f32⟩
  | 101 => ⟨S1700000x128, .f32⟩
  | 102 => ⟨S_, .f32⟩
  | 103 => ⟨S100000x128, .f32⟩
  | 104 => ⟨S1700000x1, .i32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S100000x64, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x64, .f32⟩
  | 122 => ⟨S1700000x1, .f32⟩
  | 123 => ⟨S1700000x64, .f32⟩
  | 124 => ⟨S1700000x64, .f32⟩
  | 125 => ⟨S_, .f32⟩
  | 126 => ⟨S100000x64, .f32⟩
  | 127 => ⟨S1700000x1, .i32⟩
  | _ => ⟨S100000x128, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S_, .f32⟩
  | 5 => ⟨S100000x64, .f32⟩
  | 6 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_c_10 : Ref sig .tc := ⟨.hbm, 90, rfl⟩
abbrev main_v64 : Ref sig .tc := ⟨.hbm, 91, rfl⟩
abbrev main_v65 : Ref sig .tc := ⟨.hbm, 92, rfl⟩
abbrev main_c_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_12 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_call2_cst : Ref sig .tc := ⟨.hbm, 109, rfl⟩
abbrev main_call2_v0 : Ref sig .tc := ⟨.hbm, 110, rfl⟩
abbrev main_v80 : Ref sig .tc := ⟨.hbm, 111, rfl⟩
abbrev main_v81 : Ref sig .tc := ⟨.hbm, 112, rfl⟩
abbrev main_c_13 : Ref sig .tc := ⟨.hbm, 113, rfl⟩
abbrev main_v82 : Ref sig .tc := ⟨.hbm, 114, rfl⟩
abbrev main_v83 : Ref sig .tc := ⟨.hbm, 115, rfl⟩
abbrev main_c_14 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_15 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_call3_cst : Ref sig .tc := ⟨.hbm, 132, rfl⟩
abbrev main_call3_v0 : Ref sig .tc := ⟨.hbm, 133, rfl⟩
abbrev main_v98 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The kernel program's run with its result named.

  The program is five kernel launches among stretches of host operations. Its frame certificate follows the
  TensorCore's buffer contents from the launch memory through every stretch and every launch to the contents at the
  return, `Gen.W10`; here the same run is read once more at the result buffer: every weakly fair execution terminates
  with the result array at `Gen.W10`'s value for it, the arguments unchanged.
-/
import proofs.«115128_j47227460387599_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result array at the
    last boundary's contents and the argument arrays as launched. -/
theorem run_last : θ_run defs (onTc (τ := τ) (main (F := F))) ⟨m, fun _ => 0, ρ⟩ (fun r => ∀ c : Dev nD,
      r.2.mem ((c.tc : Thread nD τ).loc main_v87) = W10 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v87 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.RunValue

end
-- ==== Proof.Spec.lean ====
/-
  The graph-convolution stack as one function of the argument arrays.

  Both programs compute, from node features `x`, an edge list `e` (two rows: sources and destinations) and four
  weight/bias pairs, four rounds of
      h ↦ relu (A · (h W) + b),
  where `A · t` is the normalised neighbourhood sum: every edge (and one self loop per node) carries the weight
  `deg^(-1/2) (source) · deg^(-1/2) (destination)`, `deg` counting the edges that end at a node, and row `d` of `A · t`
  is the sum over the edges ending at `d` of the edge's weight times row `source` of `t`.

  The pieces are named here once, in the spelling the host program uses for them, so that the two programs' results
  can be compared piece by piece and the neighbourhood sum — the same host operations in both programs — is never
  opened: `srcOf` / `dstOf` (the edge list with the self loops appended), `wrapIx` (an index normalised into range and
  stood up as a column), `normOf` (the edge weights), `aggFrom128` / `aggFrom64` and `agg128` / `agg64` (the neighbourhood sum of a 128- or
  64-column matrix, from given sources, destinations and weights, and over the graph of an edge list), `biasRelu128` / `biasRelu64` (add a bias row to every row and clamp below at zero), `lin128` / `lin64`
  (the dense product), and `gcn` (the four rounds).
-/
import proofs.«115128_j47227460387599_1_alg».proof.Proof.Gen.ReferenceIdeal

noncomputable section

namespace Cert.Gcn

open Idealize.ShloMosaic Cert.ReferenceIdeal Cert.ReferenceIdeal.Gen

variable {F : FTy → Type} [FloatOps F]

/-- The edge sources followed by one self loop per node. -/
def srcOf (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edge destinations followed by one self loop per node. -/
def dstOf (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A vector of node numbers as the column of indices a gather takes: a negative number is first moved up by the
    number of nodes. -/
def wrapIx (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The destinations as the column of indices a scatter takes. -/
def dstCol (e : (⟨S2x1600000, .i32⟩ : BufTy).Contents (Elt F)) : (⟨S1700000x1, .i32⟩ : BufTy).Contents (Elt F) :=
  broadcastInDim S1700000x1 ![0] bcast_S1700000_S1700000x1_0 (dstOf e)

/-- `deg^(-1/2)`: the inverse square root of the number of edges (self loop included) ending at each node. -/
def dinvOf (e : (⟨S2x1600000, .i32⟩ : BufTy).Contents (Elt F)) : (⟨S100000, .f32⟩ : BufTy).Contents (Elt F) :=
  Host.rsqrt (Host.scatterAdd scatter_S100000_S1700000x1_S1700000_n_0_0_1 (broadcastInDim S100000 ![] bcast_S_S100000 (constant S_ .f32 0x00000000#32)) (dstCol e) (broadcastInDim S1700000 ![] bcast_S_S1700000 (constant S_ .f32 0x3F800000#32)))

/-- The weight of each edge: `deg^(-1/2)` at its source times `deg^(-1/2)` at its destination. -/
def normOf (e : (⟨S2x1600000, .i32⟩ : BufTy).Contents (Elt F)) : (⟨S1700000, .f32⟩ : BufTy).Contents (Elt F) :=
  mulf (Host.gather gather_S100000_S1700000x1_S1700000_n_0_n_n_0_1_1 (dinvOf e) (wrapIx (srcOf e))) (Host.gather gather_S100000_S1700000x1_S1700000_n_0_n_n_0_1_1 (dinvOf e) (wrapIx (dstOf e)))

/-- The normalised neighbourhood sum of a 128-column matrix from the edge sources `src`, destinations `dst` and weights
    `nrm`: row `d` is the sum, over the edges ending at `d`, of the edge's weight times the source's row. -/
def aggFrom128 (src dst : (⟨S1700000, .i32⟩ : BufTy).Contents (Elt F)) (nrm : (⟨S1700000, .f32⟩ : BufTy).Contents (Elt F))
    (t : (⟨S100000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst) (mulf (Host.gather gather_S100000x128_S1700000x1_S1700000x128_1_0_n_n_0_1_1128 t (wrapIx src)) (broadcastInDim S1700000x128 ![0, 1] bcast_S1700000x1_S1700000x128_0_1 (broadcastInDim S1700000x1 ![0] bcast_S1700000_S1700000x1_0 nrm)))

/-- The same of a 64-column matrix. -/
def aggFrom64 (src dst : (⟨S1700000, .i32⟩ : BufTy).Contents (Elt F)) (nrm : (⟨S1700000, .f32⟩ : BufTy).Contents (Elt F))
    (t : (⟨S100000x64, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) (mulf (Host.gather gather_S100000x64_S1700000x1_S1700000x64_1_0_n_n_0_1_164 t (wrapIx src)) (broadcastInDim S1700000x64 ![0, 1] bcast_S1700000x1_S1700000x64_0_1 (broadcastInDim S1700000x1 ![0] bcast_S1700000_S1700000x1_0 nrm)))

/-- The neighbourhood sum of a 128-column matrix over the graph given by the edge list `e`. -/
def agg128 (e : (⟨S2x1600000, .i32⟩ : BufTy).Contents (Elt F)) (t : (⟨S100000x128, .f32⟩ : BufTy).Contents (Elt F)) :
    (⟨S100000x128, .f32⟩ : BufTy).Contents (Elt F) :=
  aggFrom128 (srcOf e) (dstOf e) (normOf e) t

/-- The same of a 64-column matrix. -/
def agg64 (e : (⟨S2x1600000, .i32⟩ : BufTy).Contents (Elt F)) (t : (⟨S100000x64, .f32⟩ : BufTy).Contents (Elt F)) :
    (⟨S100000x64, .f32⟩ : BufTy).Contents (Elt F) :=
  aggFrom64 (srcOf e) (dstOf e) (normOf e) t

/-- Add the bias row `b` to every row of `s` and clamp below at zero (128 columns). -/
def biasRelu128 (s : (⟨S100000x128, .f32⟩ : BufTy).Contents (Elt F)) (b : (⟨S128, .f32⟩ : BufTy).Contents (Elt F)) :
    (⟨S100000x128, .f32⟩ : BufTy).Contents (Elt F) :=
  maximumf (addf s (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- The same with 64 columns. -/
def biasRelu64 (s : (⟨S100000x64, .f32⟩ : BufTy).Contents (Elt F)) (b : (⟨S64, .f32⟩ : BufTy).Contents (Elt F)) :
    (⟨S100000x64, .f32⟩ : BufTy).Contents (Elt F) :=
  maximumf (addf s (broadcastInDim S100000x64 ![0, 1] bcast_S1x64_S100000x64_0_1 (broadcastInDim S1x64 ![1] bcast_S64_S1x64_1 b))) (broadcastInDim S100000x64 ![] bcast_S_S100000x64 (constant S_ .f32 0x00000000#32))

/-- The dense product with a 128 × 128 weight. -/
def lin128 (h : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none h w

/-- The dense product with a 128 × 64 weight. -/
def lin64 (h : (⟨S100000x128, .f32⟩ : BufTy).Contents (Elt F)) (w : (⟨S128x64, .f32⟩ : BufTy).Contents (Elt F)) :
    (⟨S100000x64, .f32⟩ : BufTy).Contents (Elt F) :=
  Host.dotGeneral dot_S100000x128_S128x64_S100000x64_1_0_0_1_n_n none h w

/-- The four rounds. -/
def gcn (x : (⟨S100000x128, .f32⟩ : BufTy).Contents (Elt F)) (e : (⟨S2x1600000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (w3 : (⟨S128x128, .f32⟩ : BufTy).Contents (Elt F)) (b3 : (⟨S128, .f32⟩ : BufTy).Contents (Elt F))
    (w4 : (⟨S128x64, .f32⟩ : BufTy).Contents (Elt F)) (b4 : (⟨S64, .f32⟩ : BufTy).Contents (Elt F)) :
    (⟨S100000x64, .f32⟩ : BufTy).Contents (Elt F) :=
  biasRelu64 (agg64 e (lin64 (biasRelu128 (agg128 e (lin128 (biasRelu128 (agg128 e (lin128 (biasRelu128 (agg128 e (lin128 x w1)) b1) w2)) b2) w3)) b3) w4)) b4

/-- `agg128` is `aggFrom128` at the edge list's sources, destinations and weights. -/
theorem agg128_def (e : (⟨S2x1600000, .i32⟩ : BufTy).Contents (Elt F)) (t : (⟨S100000x128, .f32⟩ : BufTy).Contents (Elt F)) :
    aggFrom128 (srcOf e) (dstOf e) (normOf e) t = agg128 e t := rfl

/-- `agg64` is `aggFrom64` at the edge list's sources, destinations and weights. -/
theorem agg64_def (e : (⟨S2x1600000, .i32⟩ : BufTy).Contents (Elt F)) (t : (⟨S100000x64, .f32⟩ : BufTy).Contents (Elt F)) :
    aggFrom64 (srcOf e) (dstOf e) (normOf e) t = agg64 e t := rfl

/-- The four rounds, spelt out. -/
theorem gcn_def (x : (⟨S100000x128, .f32⟩ : BufTy).Contents (Elt F)) (e : (⟨S2x1600000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (w3 : (⟨S128x128, .f32⟩ : BufTy).Contents (Elt F)) (b3 : (⟨S128, .f32⟩ : BufTy).Contents (Elt F))
    (w4 : (⟨S128x64, .f32⟩ : BufTy).Contents (Elt F)) (b4 : (⟨S64, .f32⟩ : BufTy).Contents (Elt F)) :
    biasRelu64 (agg64 e (lin64 (biasRelu128 (agg128 e (lin128 (biasRelu128 (agg128 e (lin128 (biasRelu128 (agg128 e (lin128 x w1)) b1) w2)) b2) w3)) b3) w4)) b4
      = gcn x e w1 b1 w2 b2 w3 b3 w4 b4 := rfl

end Cert.Gcn

end
-- ==== Proof.HostStretch.lean ====
/-
  The stretches of host operations between the launches, read at the buffers the launches and later stretches use.

  Each stretch is a straight line of host operations; over ANY contents `Wv` of the buffers at its start, the buffer
  it computes holds the operations' composed term of what it reads, and a buffer no operation of the stretch writes
  holds what it held. Read with the pieces of `Cert.Gcn` named:
  * the first stretch builds the edge sources and destinations with the self loops appended and the edge weights;
  * each later stretch forms the normalised neighbourhood sum of the previous launch's result — from the sources,
    destinations and weights the first stretch left — and stands the next bias up as a one-row matrix, whose lane `k`
    is the bias's entry `k`.
  All of it for any float type: nothing here computes.
-/
import proofs.«115128_j47227460387599_1_alg».proof.Proof.Spec
import proofs.«115128_j47227460387599_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.StableHlo Idealize.ShloMosaic.ValueIdx

namespace Cert.KernelIdeal.HostStretch

open Cert.KernelIdeal Cert.KernelIdeal.Gen

variable {F : FTy → Type} [FloatOps F]
variable (Wv : Valuation τ sig (Elt F))

/-! ## The first stretch: the graph's edges and weights -/

/-- The edge sources with the self loops appended. -/
theorem h0_src : StableHlo.after hostOps0 Wv (Proc.devRef .tc main_v3) = Cert.Gcn.srcOf (Wv (Proc.devRef .tc main_arg1)) := by
  after_results_simp
  rfl

/-- The edge destinations with the self loops appended. -/
theorem h0_dst : StableHlo.after hostOps0 Wv (Proc.devRef .tc main_v6) = Cert.Gcn.dstOf (Wv (Proc.devRef .tc main_arg1)) := by
  after_results_simp
  rfl

set_option maxHeartbeats 1000000 in
/-- The edge weights. -/
theorem h0_norm : StableHlo.after hostOps0 Wv (Proc.devRef .tc main_v26) = Cert.Gcn.normOf (Wv (Proc.devRef .tc main_arg1)) := by
  after_results_simp
  rfl

/-- The first stretch does not write `main_arg0`. -/
theorem h0_keep_main_arg0 : StableHlo.after hostOps0 Wv (Proc.devRef .tc main_arg0) = Wv (Proc.devRef .tc main_arg0) := by
  after_results_simp

/-- The first stretch does not write `main_arg2`. -/
theorem h0_keep_main_arg2 : StableHlo.after hostOps0 Wv (Proc.devRef .tc main_arg2) = Wv (Proc.devRef .tc main_arg2) := by
  after_results_simp

/-- The first stretch does not write `main_arg3`. -/
theorem h0_keep_main_arg3 : StableHlo.after hostOps0 Wv (Proc.devRef .tc main_arg3) = Wv (Proc.devRef .tc main_arg3) := by
  after_results_simp

/-- The first stretch does not write `main_arg4`. -/
theorem h0_keep_main_arg4 : StableHlo.after hostOps0 Wv (Proc.devRef .tc main_arg4) = Wv (Proc.devRef .tc main_arg4) := by
  after_results_simp

/-- The first stretch does not write `main_arg5`. -/
theorem h0_keep_main_arg5 : StableHlo.after hostOps0 Wv (Proc.devRef .tc main_arg5) = Wv (Proc.devRef .tc main_arg5) := by
  after_results_simp

/-- The first stretch does not write `main_arg6`. -/
theorem h0_keep_main_arg6 : StableHlo.after hostOps0 Wv (Proc.devRef .tc main_arg6) = Wv (Proc.devRef .tc main_arg6) := by
  after_results_simp

/-- The first stretch does not write `main_arg7`. -/
theorem h0_keep_main_arg7 : StableHlo.after hostOps0 Wv (Proc.devRef .tc main_arg7) = Wv (Proc.devRef .tc main_arg7) := by
  after_results_simp

/-- The first stretch does not write `main_arg8`. -/
theorem h0_keep_main_arg8 : StableHlo.after hostOps0 Wv (Proc.devRef .tc main_arg8) = Wv (Proc.devRef .tc main_arg8) := by
  after_results_simp

/-- The first stretch does not write `main_arg9`. -/
theorem h0_keep_main_arg9 : StableHlo.after hostOps0 Wv (Proc.devRef .tc main_arg9) = Wv (Proc.devRef .tc main_arg9) := by
  after_results_simp

/-! ## The second stretch -/

set_option maxHeartbeats 1000000 in
/-- The neighbourhood sum of the previous launch's result. -/
theorem h1_agg : StableHlo.after hostOps1 Wv (Proc.devRef .tc main_v40)
    = Cert.Gcn.aggFrom128 (Wv (Proc.devRef .tc main_v3)) (Wv (Proc.devRef .tc main_v6)) (Wv (Proc.devRef .tc main_v26)) (Wv (Proc.devRef .tc main_v27)) := by
  after_results_simp
  rfl

/-- The bias stood up as a one-row matrix: lane `k` of the row is the bias's entry `k`. -/
theorem h1_bias (k : Fin 128) : StableHlo.after hostOps1 Wv (Proc.devRef .tc main_v41) (ix2 0 k) = Wv (Proc.devRef .tc main_arg3) (ix1 k) := by
  after_results_simp
  show shapeCast S1x128 (Wv (Proc.devRef .tc main_arg3)) shapeCasts_S128_S1x128 (ix2 0 k) = _
  exact (shapeCast_addUnit_apply ![128] (Wv (Proc.devRef .tc main_arg3)) shapeCasts_S128_S1x128 (ix2 0 k)).trans
    (congrArg (Wv (Proc.devRef .tc main_arg3)) (funext fun a => by match a with | ⟨0, _⟩ => rfl))

/-- The second stretch does not write `main_v3`. -/
theorem h1_keep_main_v3 : StableHlo.after hostOps1 Wv (Proc.devRef .tc main_v3) = Wv (Proc.devRef .tc main_v3) := by
  after_results_simp

/-- The second stretch does not write `main_v6`. -/
theorem h1_keep_main_v6 : StableHlo.after hostOps1 Wv (Proc.devRef .tc main_v6) = Wv (Proc.devRef .tc main_v6) := by
  after_results_simp

/-- The second stretch does not write `main_v26`. -/
theorem h1_keep_main_v26 : StableHlo.after hostOps1 Wv (Proc.devRef .tc main_v26) = Wv (Proc.devRef .tc main_v26) := by
  after_results_simp

/-- The second stretch does not write `main_arg4`. -/
theorem h1_keep_main_arg4 : StableHlo.after hostOps1 Wv (Proc.devRef .tc main_arg4) = Wv (Proc.devRef .tc main_arg4) := by
  after_results_simp

/-- The second stretch does not write `main_arg5`. -/
theorem h1_keep_main_arg5 : StableHlo.after hostOps1 Wv (Proc.devRef .tc main_arg5) = Wv (Proc.devRef .tc main_arg5) := by
  after_results_simp

/-- The second stretch does not write `main_arg6`. -/
theorem h1_keep_main_arg6 : StableHlo.after hostOps1 Wv (Proc.devRef .tc main_arg6) = Wv (Proc.devRef .tc main_arg6) := by
  after_results_simp

/-- The second stretch does not write `main_arg7`. -/
theorem h1_keep_main_arg7 : StableHlo.after hostOps1 Wv (Proc.devRef .tc main_arg7) = Wv (Proc.devRef .tc main_arg7) := by
  after_results_simp

/-- The second stretch does not write `main_arg8`. -/
theorem h1_keep_main_arg8 : StableHlo.after hostOps1 Wv (Proc.devRef .tc main_arg8) = Wv (Proc.devRef .tc main_arg8) := by
  after_results_simp

/-- The second stretch does not write `main_arg9`. -/
theorem h1_keep_main_arg9 : StableHlo.after hostOps1 Wv (Proc.devRef .tc main_arg9) = Wv (Proc.devRef .tc main_arg9) := by
  after_results_simp

/-! ## The third stretch -/

set_option maxHeartbeats 1000000 in
/-- The neighbourhood sum of the previous launch's result. -/
theorem h2_agg : StableHlo.after hostOps2 Wv (Proc.devRef .tc main_v55)
    = Cert.Gcn.aggFrom128 (Wv (Proc.devRef .tc main_v3)) (Wv (Proc.devRef .tc main_v6)) (Wv (Proc.devRef .tc main_v26)) (Wv (Proc.devRef .tc main_v42)) := by
  after_results_simp
  rfl

/-- The bias stood up as a one-row matrix: lane `k` of the row is the bias's entry `k`. -/
theorem h2_bias (k : Fin 128) : StableHlo.after hostOps2 Wv (Proc.devRef .tc main_v56) (ix2 0 k) = Wv (Proc.devRef .tc main_arg5) (ix1 k) := by
  after_results_simp
  show shapeCast S1x128 (Wv (Proc.devRef .tc main_arg5)) shapeCasts_S128_S1x128 (ix2 0 k) = _
  exact (shapeCast_addUnit_apply ![128] (Wv (Proc.devRef .tc main_arg5)) shapeCasts_S128_S1x128 (ix2 0 k)).trans
    (congrArg (Wv (Proc.devRef .tc main_arg5)) (funext fun a => by match a with | ⟨0, _⟩ => rfl))

/-- The third stretch does not write `main_v3`. -/
theorem h2_keep_main_v3 : StableHlo.after hostOps2 Wv (Proc.devRef .tc main_v3) = Wv (Proc.devRef .tc main_v3) := by
  after_results_simp

/-- The third stretch does not write `main_v6`. -/
theorem h2_keep_main_v6 : StableHlo.after hostOps2 Wv (Proc.devRef .tc main_v6) = Wv (Proc.devRef .tc main_v6) := by
  after_results_simp

/-- The third stretch does not write `main_v26`. -/
theorem h2_keep_main_v26 : StableHlo.after hostOps2 Wv (Proc.devRef .tc main_v26) = Wv (Proc.devRef .tc main_v26) := by
  after_results_simp

/-- The third stretch does not write `main_arg6`. -/
theorem h2_keep_main_arg6 : StableHlo.after hostOps2 Wv (Proc.devRef .tc main_arg6) = Wv (Proc.devRef .tc main_arg6) := by
  after_results_simp

/-- The third stretch does not write `main_arg7`. -/
theorem h2_keep_main_arg7 : StableHlo.after hostOps2 Wv (Proc.devRef .tc main_arg7) = Wv (Proc.devRef .tc main_arg7) := by
  after_results_simp

/-- The third stretch does not write `main_arg8`. -/
theorem h2_keep_main_arg8 : StableHlo.after hostOps2 Wv (Proc.devRef .tc main_arg8) = Wv (Proc.devRef .tc main_arg8) := by
  after_results_simp

/-- The third stretch does not write `main_arg9`. -/
theorem h2_keep_main_arg9 : StableHlo.after hostOps2 Wv (Proc.devRef .tc main_arg9) = Wv (Proc.devRef .tc main_arg9) := by
  after_results_simp

/-! ## The fourth stretch -/

set_option maxHeartbeats 1000000 in
/-- The neighbourhood sum of the previous launch's result. -/
theorem h3_agg : StableHlo.after hostOps3 Wv (Proc.devRef .tc main_v70)
    = Cert.Gcn.aggFrom128 (Wv (Proc.devRef .tc main_v3)) (Wv (Proc.devRef .tc main_v6)) (Wv (Proc.devRef .tc main_v26)) (Wv (Proc.devRef .tc main_v57)) := by
  after_results_simp
  rfl

/-- The bias stood up as a one-row matrix: lane `k` of the row is the bias's entry `k`. -/
theorem h3_bias (k : Fin 128) : StableHlo.after hostOps3 Wv (Proc.devRef .tc main_v71) (ix2 0 k) = Wv (Proc.devRef .tc main_arg7) (ix1 k) := by
  after_results_simp
  show shapeCast S1x128 (Wv (Proc.devRef .tc main_arg7)) shapeCasts_S128_S1x128 (ix2 0 k) = _
  exact (shapeCast_addUnit_apply ![128] (Wv (Proc.devRef .tc main_arg7)) shapeCasts_S128_S1x128 (ix2 0 k)).trans
    (congrArg (Wv (Proc.devRef .tc main_arg7)) (funext fun a => by match a with | ⟨0, _⟩ => rfl))

/-- The fourth stretch does not write `main_v3`. -/
theorem h3_keep_main_v3 : StableHlo.after hostOps3 Wv (Proc.devRef .tc main_v3) = Wv (Proc.devRef .tc main_v3) := by
  after_results_simp

/-- The fourth stretch does not write `main_v6`. -/
theorem h3_keep_main_v6 : StableHlo.after hostOps3 Wv (Proc.devRef .tc main_v6) = Wv (Proc.devRef .tc main_v6) := by
  after_results_simp

/-- The fourth stretch does not write `main_v26`. -/
theorem h3_keep_main_v26 : StableHlo.after hostOps3 Wv (Proc.devRef .tc main_v26) = Wv (Proc.devRef .tc main_v26) := by
  after_results_simp

/-- The fourth stretch does not write `main_arg8`. -/
theorem h3_keep_main_arg8 : StableHlo.after hostOps3 Wv (Proc.devRef .tc main_arg8) = Wv (Proc.devRef .tc main_arg8) := by
  after_results_simp

/-- The fourth stretch does not write `main_arg9`. -/
theorem h3_keep_main_arg9 : StableHlo.after hostOps3 Wv (Proc.devRef .tc main_arg9) = Wv (Proc.devRef .tc main_arg9) := by
  after_results_simp

/-! ## The fifth stretch -/

set_option maxHeartbeats 1000000 in
/-- The neighbourhood sum of the previous launch's result. -/
theorem h4_agg : StableHlo.after hostOps4 Wv (Proc.devRef .tc main_v85)
    = Cert.Gcn.aggFrom64 (Wv (Proc.devRef .tc main_v3)) (Wv (Proc.devRef .tc main_v6)) (Wv (Proc.devRef .tc main_v26)) (Wv (Proc.devRef .tc main_v72)) := by
  after_results_simp
  rfl

/-- The bias stood up as a one-row matrix: lane `k` of the row is the bias's entry `k`. -/
theorem h4_bias (k : Fin 64) : StableHlo.after hostOps4 Wv (Proc.devRef .tc main_v86) (ix2 0 k) = Wv (Proc.devRef .tc main_arg9) (ix1 k) := by
  after_results_simp
  show shapeCast S1x64 (Wv (Proc.devRef .tc main_arg9)) shapeCasts_S64_S1x64 (ix2 0 k) = _
  exact (shapeCast_addUnit_apply ![64] (Wv (Proc.devRef .tc main_arg9)) shapeCasts_S64_S1x64 (ix2 0 k)).trans
    (congrArg (Wv (Proc.devRef .tc main_arg9)) (funext fun a => by match a with | ⟨0, _⟩ => rfl))

end Cert.KernelIdeal.HostStretch
end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibRowBlockMatmul.lean ====
/-
  A block of rows of a plain matrix product.

  For the plain contraction `[M, K] × [K, N] → [M, N]` on the extended reals, the host's product (no accumulator)
  and the matrix unit's product into the zero matrix are one function, and both read at `(r, c)` as
  `Σ_k lhs (r, k) · rhs (k, c)`. Hence a product computed on a BLOCK OF ROWS of the left operand — a `[Mb, K]` matrix
  whose row `p` is row `r` of the whole `[Mt, K]` matrix — has, at `(p, c)`, the entry `(r, c)` of the whole product:
  a row of the product depends on that row of the left operand only. All at any extents, and whatever the float
  formats of the four matrices (on the extended reals a change of format is the identity).
-/
import Idealize.ShloMosaic.Lib.ValueIdx
import Idealize.ShloMosaic.PureOps.Ideal.Laws
import proofs.«115128_j47227460387599_1_alg».proof.Proof.LibPlainMatmul

namespace Cert.RowBlockMatmul

open Idealize.ShloMosaic Idealize.ShloMosaic.ValueIdx

/-- The host's product is the matrix unit's product into the zero matrix, for any dimension numbers. -/
theorem dotGeneral_eq_matmul_zero {sl sr so : Shape} {φ₁ φ₂ : FTy} (d : DotDims sl sr so)
    (prec : Option ContractPrecision) (sched : HostSchedule) (lhs : FVec Ideal sl φ₁) (rhs : FVec Ideal sr φ₂) :
    FloatOps.dotGeneral d prec sched lhs rhs = FloatOps.matmul d prec lhs rhs (constant so .f32 0x00000000#32) := by
  funext j
  rw [Ideal.dotGeneral_apply, Ideal.matmul_constant_zero_apply]

variable {M K N : ℕ}

/-- The host's plain product at `(r, c)`: the sum over `k` of `lhs (r, k) · rhs (k, c)`. -/
theorem plainDot_apply {φ₁ φ₂ : FTy} (sched : HostSchedule) (lhs : FVec Ideal ⟨2, ![M, K]⟩ φ₁)
    (rhs : FVec Ideal ⟨2, ![K, N]⟩ φ₂) (r : Fin M) (c : Fin N) :
    FloatOps.dotGeneral (DotDims.plain M K N) none sched lhs rhs (ix2 r c)
      = ∑ k : Fin K, lhs (ix2 r k) * rhs (ix2 k c) := by
  rw [dotGeneral_eq_matmul_zero]
  exact Cert.PlainMatmul.plain_apply lhs rhs r c

/-- A block of rows: if row `p` of `Xb` is row `r` of `X`, and column `c` of `Wb` is column `c` of `W`, the matrix
    unit's product of the blocks at `(p, c)` is the host's product of the whole matrices at `(r, c)`. -/
theorem rowBlock_apply {Mb Mt : ℕ} {φ₁ φ₂ ψ₁ ψ₂ : FTy} (sched : HostSchedule)
    (X : FVec Ideal ⟨2, ![Mt, K]⟩ ψ₁) (W : FVec Ideal ⟨2, ![K, N]⟩ ψ₂)
    (Xb : FVec Ideal ⟨2, ![Mb, K]⟩ φ₁) (Wb : FVec Ideal ⟨2, ![K, N]⟩ φ₂) (p : Fin Mb) (c : Fin N) (r : Fin Mt)
    (hX : ∀ k : Fin K, Xb (ix2 p k) = X (ix2 r k)) (hW : ∀ k : Fin K, Wb (ix2 k c) = W (ix2 k c)) :
    FloatOps.matmul (DotDims.plain Mb K N) none Xb Wb (constant ⟨2, ![Mb, N]⟩ .f32 0x00000000#32) (ix2 p c)
      = FloatOps.dotGeneral (DotDims.plain Mt K N) none sched X W (ix2 r c) := by
  rw [Cert.PlainMatmul.plain_apply, plainDot_apply]
  exact Finset.sum_congr rfl fun k _ => by rw [hX k, hW k]

end Cert.RowBlockMatmul
-- ==== Proof.Region0.lean ====
/-
  The first launch: a dense product tiled over blocks of rows.

  The launch walks ten grid points; at point `t` it reads rows `10000 t … 10000 t + 9999` of the left operand
  (a [100000, 128] matrix) and the whole right operand (128 × 128), multiplies them into a zero accumulator, and
  writes the [10000, 128] product back as rows `10000 t … 10000 t + 9999` of the result.

  A row of a matrix product depends on that row of the left operand only, so the block written at point `t` is the
  block of rows of the product of the WHOLE matrices (`flushed_eq`, over `Cert.RowBlockMatmul.rowBlock_apply`); the ten
  blocks cover the result array (row `r` lies in the block of point `r / 10000`: `cover`); hence the result array ends
  holding the dense product of the two operands (`final`) — stated for ANY contents `V` of the buffers at the
  launch's entry.
-/
import proofs.«115128_j47227460387599_1_alg».proof.Proof.Spec
import proofs.«115128_j47227460387599_1_alg».proof.Proof.LibRowBlockMatmul
import proofs.«115128_j47227460387599_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

/-- The zero offset, as the constant function. -/
theorem hz : (![0, 0] : Fin 2 → Nat) = fun _ => 0 := funext fun a => by fin_cases a <;> rfl

/-- The index maps, decided over the ten grid points: the left operand and the result move with the point along the
    rows, the right operand stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block product at `(p, q)` is the whole product at `(r, q)` when row `p` of the block is row `r` of the whole
    left operand (on the extended reals a change of float format is the identity). -/
theorem pay_at (x0 : Vec Ideal S10000x128 .f32) (x1 : Vec Ideal S128x128 .f32)
    (X : (⟨S100000x128, .f32⟩ : BufTy).Contents (Elt Ideal)) (W : (⟨S128x128, .f32⟩ : BufTy).Contents (Elt Ideal))
    (p : Fin 10000) (q : Fin 128) (r : Fin 100000)
    (hX : ∀ k : Fin 128, x0 (ix2 p k) = X (ix2 r k)) (hW : ∀ k : Fin 128, x1 (ix2 k q) = W (ix2 k q)) :
    k0_pay1 x0 x1 (ix2 p q) = Cert.Gcn.lin128 X W (ix2 r q) := by
  unfold k0_pay1 Cert.Gcn.lin128
  exact Cert.RowBlockMatmul.rowBlock_apply _ X W _ _ p q r hX hW

/-- An entry of the block product is the entry of the whole product on the block's row of the whole matrix. -/
theorem block_entry (x0 : Vec Ideal S10000x128 .f32) (x1 : Vec Ideal S128x128 .f32)
    (X : (⟨S100000x128, .f32⟩ : BufTy).Contents (Elt Ideal)) (W : (⟨S128x128, .f32⟩ : BufTy).Contents (Elt Ideal))
    (j : S10000x128.Idx) (i : S100000x128.Idx)
    (hX : ∀ k : Fin 128, x0 (ix2 (j 0) k) = X (ix2 (i 0) k)) (hW : ∀ k : Fin 128, x1 (ix2 k (j 1)) = W (ix2 k (j 1)))
    (hi1 : (i 1).val = (j 1).val) :
    k0_pay1 x0 x1 j = Cert.Gcn.lin128 X W i := by
  have hj : j = ix2 (j 0) (j 1) := eq_ix2 j
  have hi : i = ix2 (i 0) (j 1) := (eq_ix2 i).trans (congrArg (ix2 (i 0)) (Fin.ext hi1))
  rw [hj, hi]
  exact pay_at x0 x1 X W (j 0) (j 1) (i 0) hX hW

/-- What point `t` writes back is block `t` of the dense product of the two operands as the launch finds them. -/
theorem flushed_eq (c : Dev nD) (t : Fin cfg0.N) :
    (dat0 V c).flushed 2 t = ((cfg0.win 2).blk t).view.read (Elt Ideal) (Cert.Gcn.lin128 (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  funext j
  show k0_pay1 (iblk0 V c 0 t) (iblk0 V c 1 t) j = Cert.Gcn.lin128 (V c main_arg0) (V c main_arg2) (((cfg0.win 2).blk t).view.emb j)
  refine block_entry (iblk0 V c 0 t) (iblk0 V c 1 t) (V c main_arg0) (V c main_arg2) j (((cfg0.win 2).blk t).view.emb j) ?_ ?_ ?_
  · intro k
    unfold iblk0
    rw [View.read_apply]
    show V c main_arg0 _ = V c main_arg0 _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · intro k
    unfold iblk0
    rw [View.read_apply]
    show V c main_arg2 _ = V c main_arg2 _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = (j 1).val; omega
  · show win0_2.index t (1 : Fin 2) * 128 + 1 * (j 1).val = (j 1).val; omega

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v27).slice (win0_2.rect t)).set ↔ _
  rw [View.set_slice_whole, Rect.mem_set_unit]
  exact Iff.rfl

/-- Row `r` of the array lies in the block of point `r / 10000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  have ht : (i 0).val / 10000 < cfg0.N := by rw [hN]; omega
  obtain ⟨-, -, -, -, e4, e5⟩ := idx_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 128 ≤ (i 1).val ∧ (i 1).val < win0_2.index ⟨(i 0).val / 10000, ht⟩ (1 : Fin 2) * 128 + 128
    rw [e5]; omega

/-- The result array of the first launch ends holding the dense product of its two operands as the launch finds them. -/
theorem final (c : Dev nD) : (dat0 V c).arrAt 2 cfg0.N = Cert.Gcn.lin128 (V c main_arg0) (V c main_arg2) :=
  (dat0 V c).arrAt_eq_of_cover 2 _ (fun t _ => flushed_eq V c t) cover

end Cert.KernelIdeal.Region0
end
-- ==== Proof.BiasRelu.lean ====
/-
  Adding a bias row and clamping below at zero, read at one entry.

  A kernel adds a [1, N] bias block to every row of a block of rows and takes the maximum with the zero splat; the host
  program stands a length-N bias up as a [1, N] row, repeats it over all rows, adds and takes the maximum with the zero
  matrix. At an entry `(row, k)` both are `max (s + b_k) 0` of the entry `s` there and the bias's entry `k`, for any
  floats: the two broadcasts read the bias at lane `k` whatever the row.
-/
import Idealize.ShloMosaic.Lib.ValueIdx
import Idealize.ShloMosaic.Lib.Pipeline.Value

namespace Cert.BiasRelu

open Idealize.ShloMosaic Idealize.ShloMosaic.ValueIdx

variable {F : FTy → Type} [FloatOps F]

/-- 128 lanes: the kernel's form on a block at `(p, k)` is the host's form on the whole matrix at `(r, k)` when the
    block's entry is the matrix's and the bias block's lane `k` is the bias's entry `k`. -/
theorem entry128 (x0 : FVec F ⟨2, ![10000, 128]⟩ .f32) (x1 : FVec F ⟨2, ![1, 128]⟩ .f32)
    (S : FVec F ⟨2, ![100000, 128]⟩ .f32) (b : FVec F ⟨1, ![128]⟩ .f32)
    (hc1 : (⟨2, ![10000, 128]⟩ : Shape).ShapeCasts ⟨2, ![10000, 128]⟩) (hc2 : (⟨2, ![1, 128]⟩ : Shape).ShapeCasts ⟨2, ![1, 128]⟩)
    (hb : (⟨2, ![1, 128]⟩ : Shape).Broadcasts ⟨2, ![10000, 128]⟩)
    (h1 : (⟨2, ![1, 128]⟩ : Shape).BroadcastsInDim ⟨2, ![100000, 128]⟩ (![0, 1] : Fin 2 → Fin 2))
    (h2 : (⟨1, ![128]⟩ : Shape).BroadcastsInDim ⟨2, ![1, 128]⟩ (![1] : Fin 1 → Fin 2))
    (h3 : (⟨0, ![]⟩ : Shape).BroadcastsInDim ⟨2, ![100000, 128]⟩ (![] : Fin 0 → Fin 2))
    (p : Fin 10000) (r : Fin 100000) (k : Fin 128)
    (hX : x0 (ix2 p k) = S (ix2 r k)) (hB : x1 (ix2 0 k) = b (ix1 k)) :
    maximumf (addf (shapeCast ⟨2, ![10000, 128]⟩ x0 hc1) (broadcastTo ⟨2, ![10000, 128]⟩ (shapeCast ⟨2, ![1, 128]⟩ x1 hc2) hb))
        (broadcast ⟨2, ![10000, 128]⟩ (Scalar.ofBits .f32 0x00000000#32)) (ix2 p k)
      = maximumf (addf S (broadcastInDim ⟨2, ![100000, 128]⟩ ![0, 1] h1 (broadcastInDim ⟨2, ![1, 128]⟩ ![1] h2 b)))
        (broadcastInDim ⟨2, ![100000, 128]⟩ ![] h3 (constant ⟨0, ![]⟩ .f32 0x00000000#32)) (ix2 r k) := by
  show FloatOps.maximumf (FloatOps.addf (shapeCast ⟨2, ![10000, 128]⟩ x0 hc1 (ix2 p k))
      (broadcastTo ⟨2, ![10000, 128]⟩ (shapeCast ⟨2, ![1, 128]⟩ x1 hc2) hb (ix2 p k))) (FloatOps.ofBits .f32 0x00000000#32)
    = FloatOps.maximumf (FloatOps.addf (S (ix2 r k))
      (broadcastInDim ⟨2, ![100000, 128]⟩ ![0, 1] h1 (broadcastInDim ⟨2, ![1, 128]⟩ ![1] h2 b) (ix2 r k))) (FloatOps.ofBits .f32 0x00000000#32)
  rw [shapeCast_self, shapeCast_self,
    broadcastTo_apply x1 hb (ix2 p k) (ix2 0 k) (by intro a; match a with | ⟨0, _⟩ => rfl | ⟨1, _⟩ => rfl),
    broadcastInDim_apply _ h1 _ (ix2 r k) (ix2 0 k) (by intro a; match a with | ⟨0, _⟩ => rfl | ⟨1, _⟩ => rfl),
    broadcastInDim_apply _ h2 b (ix2 0 k) (ix1 k) (by intro a; match a with | ⟨0, _⟩ => rfl),
    hX, hB]

/-- 64 lanes: the same. -/
theorem entry64 (x0 : FVec F ⟨2, ![10000, 64]⟩ .f32) (x1 : FVec F ⟨2, ![1, 64]⟩ .f32)
    (S : FVec F ⟨2, ![100000, 64]⟩ .f32) (b : FVec F ⟨1, ![64]⟩ .f32)
    (hc1 : (⟨2, ![10000, 64]⟩ : Shape).ShapeCasts ⟨2, ![10000, 64]⟩) (hc2 : (⟨2, ![1, 64]⟩ : Shape).ShapeCasts ⟨2, ![1, 64]⟩)
    (hb : (⟨2, ![1, 64]⟩ : Shape).Broadcasts ⟨2, ![10000, 64]⟩)
    (h1 : (⟨2, ![1, 64]⟩ : Shape).BroadcastsInDim ⟨2, ![100000, 64]⟩ (![0, 1] : Fin 2 → Fin 2))
    (h2 : (⟨1, ![64]⟩ : Shape).BroadcastsInDim ⟨2, ![1, 64]⟩ (![1] : Fin 1 → Fin 2))
    (h3 : (⟨0, ![]⟩ : Shape).BroadcastsInDim ⟨2, ![100000, 64]⟩ (![] : Fin 0 → Fin 2))
    (p : Fin 10000) (r : Fin 100000) (k : Fin 64)
    (hX : x0 (ix2 p k) = S (ix2 r k)) (hB : x1 (ix2 0 k) = b (ix1 k)) :
    maximumf (addf (shapeCast ⟨2, ![10000, 64]⟩ x0 hc1) (broadcastTo ⟨2, ![10000, 64]⟩ (shapeCast ⟨2, ![1, 64]⟩ x1 hc2) hb))
        (broadcast ⟨2, ![10000, 64]⟩ (Scalar.ofBits .f32 0x00000000#32)) (ix2 p k)
      = maximumf (addf S (broadcastInDim ⟨2, ![100000, 64]⟩ ![0, 1] h1 (broadcastInDim ⟨2, ![1, 64]⟩ ![1] h2 b)))
        (broadcastInDim ⟨2, ![100000, 64]⟩ ![] h3 (constant ⟨0, ![]⟩ .f32 0x00000000#32)) (ix2 r k) := by
  show FloatOps.maximumf (FloatOps.addf (shapeCast ⟨2, ![10000, 64]⟩ x0 hc1 (ix2 p k))
      (broadcastTo ⟨2, ![10000, 64]⟩ (shapeCast ⟨2, ![1, 64]⟩ x1 hc2) hb (ix2 p k))) (FloatOps.ofBits .f32 0x00000000#32)
    = FloatOps.maximumf (FloatOps.addf (S (ix2 r k))
      (broadcastInDim ⟨2, ![100000, 64]⟩ ![0, 1] h1 (broadcastInDim ⟨2, ![1, 64]⟩ ![1] h2 b) (ix2 r k))) (FloatOps.ofBits .f32 0x00000000#32)
  rw [shapeCast_self, shapeCast_self,
    broadcastTo_apply x1 hb (ix2 p k) (ix2 0 k) (by intro a; match a with | ⟨0, _⟩ => rfl | ⟨1, _⟩ => rfl),
    broadcastInDim_apply _ h1 _ (ix2 r k) (ix2 0 k) (by intro a; match a with | ⟨0, _⟩ => rfl | ⟨1, _⟩ => rfl),
    broadcastInDim_apply _ h2 b (ix2 0 k) (ix1 k) (by intro a; match a with | ⟨0, _⟩ => rfl),
    hX, hB]

end Cert.BiasRelu
-- ==== Proof.Region1.lean ====
/-
  The second launch: add a bias row, clamp below at zero, and multiply by a weight matrix — tiled over blocks of rows.

  At grid point `t` (of ten) the launch reads rows `10000 t … 10000 t + 9999` of a [100000, 128] matrix `s`, the
  whole [1, 128] bias block and the whole 128 × 128 weight; it forms `max (s + bias) 0` on the block, multiplies by the
  weight into a zero accumulator, and writes the [10000, 128] product back as the same rows of the result.

  The bias is added lane by lane whatever the row, and a row of a matrix product depends on that row of the left
  operand only: so the block written at point `t` is the block of rows of `(max (s + b) 0) · W` formed on the WHOLE
  matrices (`flushed_eq`); the ten blocks cover the result (`cover`); hence the result array ends holding that product
  (`final`) — for ANY contents `V` of the buffers at the launch's entry, `b` being any length-128 vector that the
  [1, 128] bias block repeats lane by lane.
-/
import proofs.«115128_j47227460387599_1_alg».proof.Proof.Spec
import proofs.«115128_j47227460387599_1_alg».proof.Proof.LibRowBlockMatmul
import proofs.«115128_j47227460387599_1_alg».proof.Proof.BiasRelu
import proofs.«115128_j47227460387599_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

/-- The zero offset, as the constant function. -/
theorem hz : (![0, 0] : Fin 2 → Nat) = fun _ => 0 := funext fun a => by fin_cases a <;> rfl

/-- The index maps, decided over the ten grid points: the left operand and the result move with the point along the
    rows; the bias block and the weight stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block's result at `(p, q)` is the whole matrices' at `(r, q)` when row `p` of the block is row `r` of the whole
    left operand and the bias block repeats `b` (on the extended reals a change of float format is the identity). -/
theorem pay_at (x0 : Vec Ideal S10000x128 .f32) (x1 : Vec Ideal S1x128 .f32) (x2 : Vec Ideal S128x128 .f32)
    (S : (⟨S100000x128, .f32⟩ : BufTy).Contents (Elt Ideal)) (b : (⟨S128, .f32⟩ : BufTy).Contents (Elt Ideal))
    (W : (⟨S128x128, .f32⟩ : BufTy).Contents (Elt Ideal))
    (p : Fin 10000) (q : Fin 128) (r : Fin 100000)
    (hX : ∀ k : Fin 128, x0 (ix2 p k) = S (ix2 r k)) (hB : ∀ k : Fin 128, x1 (ix2 0 k) = b (ix1 k))
    (hW : ∀ k : Fin 128, x2 (ix2 k q) = W (ix2 k q)) :
    k1_pay1 x0 x1 x2 (ix2 p q) = Cert.Gcn.lin128 (Cert.Gcn.biasRelu128 S b) W (ix2 r q) := by
  have hrow : ∀ k : Fin 128, (truncf .bf16 (maximumf (addf (shapeCast S10000x128 x0 shapeCasts_S10000x128_S10000x128)
        (broadcastTo S10000x128 (shapeCast S1x128 x1 shapeCasts_S1x128_S1x128) broadcasts_S1x128_S10000x128))
        (broadcast S10000x128 (Scalar.ofBits .f32 0x00000000#32))) bitsLt_bf16_f32 : FVec Ideal S10000x128 .bf16) (ix2 p k)
      = Cert.Gcn.biasRelu128 S b (ix2 r k) :=
    fun k => Cert.BiasRelu.entry128 (F := Ideal) x0 x1 S b _ _ _ _ _ _ p r k (hX k) (hB k)
  unfold k1_pay1 Cert.Gcn.lin128
  exact Cert.RowBlockMatmul.rowBlock_apply _ (Cert.Gcn.biasRelu128 S b) W _ _ p q r hrow hW

/-- An entry of the block's result is the entry of the whole matrices' result on the block's row of the whole matrix. -/
theorem block_entry (x0 : Vec Ideal S10000x128 .f32) (x1 : Vec Ideal S1x128 .f32) (x2 : Vec Ideal S128x128 .f32)
    (S : (⟨S100000x128, .f32⟩ : BufTy).Contents (Elt Ideal)) (b : (⟨S128, .f32⟩ : BufTy).Contents (Elt Ideal))
    (W : (⟨S128x128, .f32⟩ : BufTy).Contents (Elt Ideal))
    (j : S10000x128.Idx) (i : S100000x128.Idx)
    (hX : ∀ k : Fin 128, x0 (ix2 (j 0) k) = S (ix2 (i 0) k)) (hB : ∀ k : Fin 128, x1 (ix2 0 k) = b (ix1 k))
    (hW : ∀ k : Fin 128, x2 (ix2 k (j 1)) = W (ix2 k (j 1)))
    (hi1 : (i 1).val = (j 1).val) :
    k1_pay1 x0 x1 x2 j = Cert.Gcn.lin128 (Cert.Gcn.biasRelu128 S b) W i := by
  have hj : j = ix2 (j 0) (j 1) := eq_ix2 j
  have hi : i = ix2 (i 0) (j 1) := (eq_ix2 i).trans (congrArg (ix2 (i 0)) (Fin.ext hi1))
  rw [hj, hi]
  exact pay_at x0 x1 x2 S b W (j 0) (j 1) (i 0) hX hB hW

/-- What point `t` writes back is block `t` of `(max (s + b) 0) · W` of the operands as the launch finds them. -/
theorem flushed_eq (c : Dev nD) (b : (⟨S128, .f32⟩ : BufTy).Contents (Elt Ideal))
    (hb : ∀ k : Fin 128, V c main_v41 (ix2 0 k) = b (ix1 k)) (t : Fin cfg1.N) :
    (dat1 V c).flushed 3 t = ((cfg1.win 3).blk t).view.read (Elt Ideal)
      (Cert.Gcn.lin128 (Cert.Gcn.biasRelu128 (V c main_v40) b) (V c main_arg4)) := by
  show (cfg1.win 3).cut (grid1.coords t) ((dat1 V c).after 3 t) = _
  rw [after1_3]
  unfold out1_3
  rw [View.canon_unit_zero hz]
  simp only [View.ld_unit_zero (S := S10000x128) hz, View.ld_unit_zero (S := S1x128) hz, View.ld_unit_zero (S := S128x128) hz]
  obtain ⟨e0, e1, e2, e3, e4, e5, e6, e7⟩ := idx_facts t
  funext j
  show k1_pay1 (iblk1 V c 0 t) (iblk1 V c 1 t) (iblk1 V c 2 t) j
    = Cert.Gcn.lin128 (Cert.Gcn.biasRelu128 (V c main_v40) b) (V c main_arg4) (((cfg1.win 3).blk t).view.emb j)
  refine block_entry (iblk1 V c 0 t) (iblk1 V c 1 t) (iblk1 V c 2 t) (V c main_v40) b (V c main_arg4) j
    (((cfg1.win 3).blk t).view.emb j) ?_ ?_ ?_ ?_
  · intro k
    unfold iblk1
    rw [View.read_apply]
    show V c main_v40 _ = V c main_v40 _
    refine congrArg (V c main_v40) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 128 + 1 * k.val = k.val; omega
  · intro k
    unfold iblk1
    rw [View.read_apply]
    show V c main_v41 _ = _
    refine (congrArg (V c main_v41) (funext fun a => Fin.ext ?_)).trans (hb k)
    match a with
    | ⟨0, _⟩ => show win1_1.index t (0 : Fin 2) * 1 + 1 * 0 = 0; omega
    | ⟨1, _⟩ => show win1_1.index t (1 : Fin 2) * 128 + 1 * k.val = k.val; omega
  · intro k
    unfold iblk1
    rw [View.read_apply]
    show V c main_arg4 _ = V c main_arg4 _
    refine congrArg (V c main_arg4) (funext fun a => Fin.ext ?_)
    match a with
    | ⟨0, _⟩ => show win1_2.index t (0 : Fin 2) * 128 + 1 * k.val = k.val; omega
    | ⟨1, _⟩ => show win1_2.index t (1 : Fin 2) * 128 + 1 * (j 1).val = (j 1).val; omega
  · show win1_3.index t (1 : Fin 2) * 128 + 1 * (j 1).val = (j 1).val; omega

/-- An index of the array is in point `t`'s block iff each coordinate is in the block's range on its axis. -/
theorem mem_blk (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v42).slice (win1_3.rect t)).set ↔ _
  rw [View.set_slice_whole, Rect.mem_set_unit]
  exact Iff.rfl

/-- Row `r` of the array lies in the block of point `r / 10000`. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 10 := N_1
  have ht : (i 0).val / 10000 < cfg1.N := by rw [hN]; omega
  obtain ⟨-, -, -, -, -, -, e6, e7⟩ := idx_facts ⟨(i 0).val / 10000, ht⟩
  refine ⟨⟨(i 0).val / 10000, ht⟩, flush1_3 _, ?_⟩
  rw [mem_blk]
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win1_3.index ⟨(i 0).val / 10000, ht⟩ (1 : Fin 2) * 128 ≤ (i 1).val ∧ (i 1).val < win1_3.index ⟨(i 0).val / 10000, ht⟩ (1 : Fin 2) * 128 + 128
    rw [e7]; omega

/-- The launch's result array ends holding `(max (s + b) 0) · W` of its operands as the launch finds them. -/
theorem final (c : Dev nD) (b : (⟨S128, .f32⟩ : BufTy).Contents (Elt Ideal))
    (hb : ∀ k : Fin 128, V c main_v41 (ix2 0 k) = b (ix1 k)) :
    (dat1 V c).arrAt 3 cfg1.N = Cert.Gcn.lin128 (Cert.Gcn.biasRelu128 (V c main_v40) b) (V c main_arg4) :=
  (dat1 V c).arrAt_eq_of_cover 3 _ (fun t _ => flushed_eq V c b hb t) cover

end Cert.KernelIdeal.Region1
end
-- ==== Proof.Region2.lean ====
/-
  The third launch: add a bias row, clamp below at zero, and multiply by a weight matrix — tiled over blocks of rows.

  At grid point `t` (of ten) the launch reads rows `10000 t … 10000 t + 9999` of a [100000, 128] matrix `s`, the
  whole [1, 128] bias block and the whole 128 × 128 weight; it forms `max (s + bias) 0` on the block, multiplies by the
  weight into a zero accumulator, and writes the [10000, 128] product back as the same rows of the result.

  The bias is added lane by lane whatever the row, and a row of a matrix product depends on that row of the left
  operand only: so the block written at point `t` is the block of rows of `(max (s + b) 0) · W` formed on the WHOLE
  matrices (`flushed_eq`); the ten blocks cover the result (`cover`); hence the result array ends holding that product
  (`final`) — for ANY contents `V` of the buffers at the launch's entry, `b` being any length-128 vector that the
  [1, 128] bias block repeats lane by lane.
-/
import proofs.«115128_j47227460387599_1_alg».proof.Proof.Spec
import proofs.«115128_j47227460387599_1_alg».proof.Proof.LibRowBlockMatmul
import proofs.«115128_j47227460387599_1_alg».proof.Proof.BiasRelu
import proofs.«115128_j47227460387599_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

/-- The zero offset, as the constant function. -/
theorem hz : (![0, 0] : Fin 2 → Nat) = fun _ => 0 := funext fun a => by fin_cases a <;> rfl

/-- The index maps, decided over the ten grid points: the left operand and the result move with the point along the
    rows; the bias block and the weight stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The block's result at `(p, q)` is the whole matrices' at `(r, q)` when row `p` of the block is row `r` of the whole
    left operand and the bias block repeats `b` (on the extended reals a change of float format is the identity). -/
theorem pay_at (x0 : Vec Ideal S10000x128 .f32) (x1 : Vec Ideal S1x128 .f32) (x2 : Vec Ideal S128x128 .f32)
    (S : (⟨S100000x128, .f32⟩ : BufTy).Contents (Elt Ideal)) (b : (⟨S128, .f32⟩ : BufTy).Contents (Elt Ideal))
    (W : (⟨S128x128, .f32⟩ : BufTy).Contents (Elt Ideal))
    (p : Fin 10000) (q : Fin 128) (r : Fin 100000)
    (hX : ∀ k : Fin 128, x0 (ix2 p k) = S (ix2 r k)) (hB : ∀ k : Fin 128, x1 (ix2 0 k) = b (ix1 k))
    (hW : ∀ k : Fin 128, x2 (ix2 k q) = W (ix2 k q)) :
    k2_pay1 x0 x1 x2 (ix2 p q) = Cert.Gcn.lin128 (Cert.Gcn.biasRelu128 S b) W (ix2 r q) := by
  have hrow : ∀ k : Fin 128, (truncf .bf16 (maximumf (addf (shapeCast S10000x128 x0 shapeCasts_S10000x128_S10000x128)
        (broadcastTo S10000x128 (shapeCast S1x128 x1 shapeCasts_S1x128_S1x128) broadcasts_S1x128_S10000x128))
        (broadcast S10000x128 (Scalar.ofBits .f32 0x00000000#32))) bitsLt_bf16_f32 : FVec Ideal S10000x128 .bf16) (ix2 p k)
      = Cert.Gcn.biasRelu128 S b (ix2 r k) :=
    fun k => Cert.BiasRelu.entry128 (F := Ideal) x0 x1 S b _ _ _ _ _ _ p r k (hX k) (hB k)
  unfold k2_pay1 Cert.Gcn.lin128
  exact Cert.RowBlockMatmul.rowBlock_apply _ (Cert.Gcn.biasRelu128 S b) W _ _ p q r hrow hW

/-- An entry of the block's result is the entry of the whole matrices' result on the block's row of the whole matrix. -/
theorem block_entry (x0 : Vec Ideal S10000x128 .f32) (x1 : Vec Ideal S1x128 .f32) (x2 : Vec Ideal S128x128 .f32)
    (S : (⟨S100000x128, .f32⟩ : BufTy).Contents (Elt Ideal)) (b : (⟨S128, .f32⟩ : BufTy).Contents (Elt Ideal))
    (W : (⟨S128x128, .f32⟩ : BufTy).Contents (Elt Ideal))
    (j : S10000x128.Idx) (i : S100000x128.Idx)
    (hX : ∀ k : Fin 128, x0 (ix2 (j 0) k) = S (ix2 (i 0) k)) (hB : ∀ k : Fin 128, x1 (ix2 0 k) = b (ix1 k))
    (hW : ∀ k : Fin 128, x2 (ix2 k (j 1)) = W (ix2 k (j 1)))
    (hi1 : (i 1).val = (j 1).val) :
    k2_pay1 x0 x1 x2 j = Cert.Gcn.lin128 (Cert.Gcn.biasRelu128 S b) W i := by
  have hj : j = ix2 (j 0) (j 1) := eq_ix2 j
  have hi : i = ix2 (i 0) (j 1) := (eq_ix2 i).trans (congrArg (ix2 (i 0)) (Fin.ext hi1))
  rw [hj, hi]
  exact pay_at x0 x1 x2 S b W (j 0) (j 1) (i 0) hX hB hW

/-- What point `t` writes back is block `t` of `(max (s + b) 0) · W` of the operands as the launch finds them. -/
theorem flushed_eq (c : Dev nD) (b : (⟨S128, .f32⟩ : BufTy).Contents (Elt Ideal))
    (hb : ∀ k : Fin 128, V c main_v56 (ix2 0 k) = b (ix1 k)) (t : Fin cfg2.N) :
    (dat2 V c).flushed 3 t = ((cfg2.win 3).blk t).view.read (Elt Ideal)
      (Cert.Gcn.lin128 (Cert.Gcn.biasRelu128 (V c main_v55) b) (V c main_arg6)) := by
  show (cfg2.win 3).cut (grid2.coords t) ((dat2 V c).after 3 t) = _
  rw [after2_3]
  unfold out2_3
  rw [View.canon_unit_zero hz]
  simp only [View.ld_unit_zero (S := S10000x128) hz, View.ld_unit_zero (S := S1x128) hz, View.ld_unit_zero (S := S128x128) hz]
  obtain ⟨e0, e1, e2, e3, e4, e5, e6, e7⟩ := idx_facts t
  funext j
  show k2_pay1 (iblk2 V c 0 t) (iblk2 V c 1 t) (iblk2 V c 2 t) j
    = Cert.Gcn.lin128 (Cert.Gcn.biasRelu128 (V c main_v55) b) (V c main_arg6) (((cfg2.win 3).blk t).view.emb j)
  refine block_entry (iblk2 V c 0 t) (iblk2 V c 1 t) (iblk2 V c 2 t) (V c main_v55) b (V c main_arg6) j
    (((cfg2.win 3).blk t).view.emb j) ?_ ?_ ?_ ?_
  · intro k
    unfold iblk2
    rw [View.read_apply]
    show V c main_v55 _ = V c main_v55 _
    refine congrArg (V c main_v55) (funext fun a => Fin.ext ?_)
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 128 + 1 * k.val = k.val; omega
  · intro k
    unfold iblk2
    rw [View.read_apply]
    show V c main_v56 _ = _
    refine (congrArg (V c main_v56) (funext fun a => Fin.ext ?_)).trans (hb k)
    match a with
    | ⟨0, _⟩ => show win2_1.index t (0 : Fin 2) * 1 + 1 * 0 = 0; omega
    | ⟨1, _⟩ => show win2_1.index t (1 : Fin 2) * 128 + 1 * k.val = k.val; omega
  · intro k
    unfold iblk2
    rw [View.read_apply]
    show V c main_arg6 _ = V c main_arg6 _
    refine congrArg (V c main_arg6) (funext fun a => Fin.ext ?_)
    match a with
    | ⟨0, _⟩ => show win2_2.index t (0 : Fin 2) * 128 + 1 * k.val = k.val; omega
    | ⟨1, _⟩ => show win2_2.index t (1 : Fin 2) * 128 + 1 * (j 1).val = (j 1).val; omega
  · show win2_3.index t (1 : Fin 2) * 128 + 1 * (j 1).val = (j 1).val; omega

/-- An index of the array is in point `t`'s block iff each coordinate is in the block's range on its axis. -/
theorem mem_blk (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v57).slice (win2_3.rect t)).set ↔ _
  rw [View.set_slice_whole, Rect.mem_set_unit]
  exact Iff.rfl

/-- Row `r` of the array lies in the block of point `r / 10000`. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 10 := N_2
  have ht : (i 0).val / 10000 < cfg2.N := by rw [hN]; omega
  obtain ⟨-, -, -, -, -, -, e6, e7⟩ := idx_facts ⟨(i 0).val / 10000, ht⟩
  refine ⟨⟨(i 0).val / 10000, ht⟩, flush2_3 _, ?_⟩
  rw [mem_blk]
  intro a
  match a with
  | ⟨0, _⟩ =>
    show win2_3.index ⟨(i 0).val / 10000, ht⟩ (0 : Fin 2) * 10000 ≤ (i 0).val ∧ (i 0).val < win2_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win2_3.index ⟨(i 0).val / 10000, ht⟩ (1 : Fin 2) * 128 ≤ (i 1).val ∧ (i 1).val < win2_3.index ⟨(i 0).val / 10000, ht⟩ (1 : Fin 2) * 128 + 128
    rw [e7]; omega

/-- The launch's result array ends holding `(max (s + b) 0) · W` of its operands as the launch finds them. -/
theorem final (c : Dev nD) (b : (⟨S128, .f32⟩ : BufTy).Contents (Elt Ideal))
    (hb : ∀ k : Fin 128, V c main_v56 (ix2 0 k) = b (ix1 k)) :
    (dat2 V c).arrAt 3 cfg2.N = Cert.Gcn.lin128 (Cert.Gcn.biasRelu128 (V c main_v55) b) (V c main_arg6) :=
  (dat2 V c).arrAt_eq_of_cover 3 _ (fun t _ => flushed_eq V c b hb t) cover

end Cert.KernelIdeal.Region2
end
-- ==== Proof.Region3.lean ====
/-
  The fourth launch: add a bias row, clamp below at zero, and multiply by a weight matrix — tiled over blocks of rows.

  At grid point `t` (of ten) the launch reads rows `10000 t … 10000 t + 9999` of a [100000, 128] matrix `s`, the
  whole [1, 128] bias block and the whole 128 × 64 weight; it forms `max (s + bias) 0` on the block, multiplies by the
  weight into a zero accumulator, and writes the [10000, 64] product back as the same rows of the result.

  The bias is added lane by lane whatever the row, and a row of a matrix product depends on that row of the left
  operand only: so the block written at point `t` is the block of rows of `(max (s + b) 0) · W` formed on the WHOLE
  matrices (`flushed_eq`); the ten blocks cover the result (`cover`); hence the result array ends holding that product
  (`final`) — for ANY contents `V` of the buffers at the launch's entry, `b` being any length-128 vector that the
  [1, 128] bias block repeats lane by lane.
-/
import proofs.«115128_j47227460387599_1_alg».proof.Proof.Spec
import proofs.«115128_j47227460387599_1_alg».proof.Proof.LibRowBlockMatmul
import proofs.«115128_j47227460387599_1_alg».proof.Proof.BiasRelu
import proofs.«115128_j47227460387599_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

/-- The zero offset, as the constant function. -/
theorem hz : (![0, 0] : Fin 2 → Nat) = fun _ => 0 := funext fun a => by fin_cases a <;> rfl

/-- The index maps, decided over the ten grid points: the left operand and the result move with the point along the
    rows; the bias block and the weight stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The block's result at `(p, q)` is the whole matrices' at `(r, q)` when row `p` of the block is row `r` of the whole
    left operand and the bias block repeats `b` (on the extended reals a change of float format is the identity). -/
theorem pay_at (x0 : Vec Ideal S10000x128 .f32) (x1 : Vec Ideal S1x128 .f32) (x2 : Vec Ideal S128x64 .f32)
    (S : (⟨S100000x128, .f32⟩ : BufTy).Contents (Elt Ideal)) (b : (⟨S128, .f32⟩ : BufTy).Contents (Elt Ideal))
    (W : (⟨S128x64, .f32⟩ : BufTy).Contents (Elt Ideal))
    (p : Fin 10000) (q : Fin 64) (r : Fin 100000)
    (hX : ∀ k : Fin 128, x0 (ix2 p k) = S (ix2 r k)) (hB : ∀ k : Fin 128, x1 (ix2 0 k) = b (ix1 k))
    (hW : ∀ k : Fin 128, x2 (ix2 k q) = W (ix2 k q)) :
    k3_pay1 x0 x1 x2 (ix2 p q) = Cert.Gcn.lin64 (Cert.Gcn.biasRelu128 S b) W (ix2 r q) := by
  have hrow : ∀ k : Fin 128, (truncf .bf16 (maximumf (addf (shapeCast S10000x128 x0 shapeCasts_S10000x128_S10000x128)
        (broadcastTo S10000x128 (shapeCast S1x128 x1 shapeCasts_S1x128_S1x128) broadcasts_S1x128_S10000x128))
        (broadcast S10000x128 (Scalar.ofBits .f32 0x00000000#32))) bitsLt_bf16_f32 : FVec Ideal S10000x128 .bf16) (ix2 p k)
      = Cert.Gcn.biasRelu128 S b (ix2 r k) :=
    fun k => Cert.BiasRelu.entry128 (F := Ideal) x0 x1 S b _ _ _ _ _ _ p r k (hX k) (hB k)
  unfold k3_pay1 Cert.Gcn.lin64
  exact Cert.RowBlockMatmul.rowBlock_apply _ (Cert.Gcn.biasRelu128 S b) W _ _ p q r hrow hW

/-- An entry of the block's result is the entry of the whole matrices' result on the block's row of the whole matrix. -/
theorem block_entry (x0 : Vec Ideal S10000x128 .f32) (x1 : Vec Ideal S1x128 .f32) (x2 : Vec Ideal S128x64 .f32)
    (S : (⟨S100000x128, .f32⟩ : BufTy).Contents (Elt Ideal)) (b : (⟨S128, .f32⟩ : BufTy).Contents (Elt Ideal))
    (W : (⟨S128x64, .f32⟩ : BufTy).Contents (Elt Ideal))
    (j : S10000x64.Idx) (i : S100000x64.Idx)
    (hX : ∀ k : Fin 128, x0 (ix2 (j 0) k) = S (ix2 (i 0) k)) (hB : ∀ k : Fin 128, x1 (ix2 0 k) = b (ix1 k))
    (hW : ∀ k : Fin 128, x2 (ix2 k (j 1)) = W (ix2 k (j 1)))
    (hi1 : (i 1).val = (j 1).val) :
    k3_pay1 x0 x1 x2 j = Cert.Gcn.lin64 (Cert.Gcn.biasRelu128 S b) W i := by
  have hj : j = ix2 (j 0) (j 1) := eq_ix2 j
  have hi : i = ix2 (i 0) (j 1) := (eq_ix2 i).trans (congrArg (ix2 (i 0)) (Fin.ext hi1))
  rw [hj, hi]
  exact pay_at x0 x1 x2 S b W (j 0) (j 1) (i 0) hX hB hW

/-- What point `t` writes back is block `t` of `(max (s + b) 0) · W` of the operands as the launch finds them. -/
theorem flushed_eq (c : Dev nD) (b : (⟨S128, .f32⟩ : BufTy).Contents (Elt Ideal))
    (hb : ∀ k : Fin 128, V c main_v71 (ix2 0 k) = b (ix1 k)) (t : Fin cfg3.N) :
    (dat3 V c).flushed 3 t = ((cfg3.win 3).blk t).view.read (Elt Ideal)
      (Cert.Gcn.lin64 (Cert.Gcn.biasRelu128 (V c main_v70) b) (V c main_arg8)) := by
  show (cfg3.win 3).cut (grid3.coords t) ((dat3 V c).after 3 t) = _
  rw [after3_3]
  unfold out3_3
  rw [View.canon_unit_zero hz]
  simp only [View.ld_unit_zero (S := S10000x128) hz, View.ld_unit_zero (S := S1x128) hz, View.ld_unit_zero (S := S128x64) hz]
  obtain ⟨e0, e1, e2, e3, e4, e5, e6, e7⟩ := idx_facts t
  funext j
  show k3_pay1 (iblk3 V c 0 t) (iblk3 V c 1 t) (iblk3 V c 2 t) j
    = Cert.Gcn.lin64 (Cert.Gcn.biasRelu128 (V c main_v70) b) (V c main_arg8) (((cfg3.win 3).blk t).view.emb j)
  refine block_entry (iblk3 V c 0 t) (iblk3 V c 1 t) (iblk3 V c 2 t) (V c main_v70) b (V c main_arg8) j
    (((cfg3.win 3).blk t).view.emb j) ?_ ?_ ?_ ?_
  · intro k
    unfold iblk3
    rw [View.read_apply]
    show V c main_v70 _ = V c main_v70 _
    refine congrArg (V c main_v70) (funext fun a => Fin.ext ?_)
    match a with
    | ⟨0, _⟩ => show win3_0.index t (0 : Fin 2) * 10000 + 1 * (j 0).val = win3_3.index t (0 : Fin 2) * 10000 + 1 * (j 0).val; omega
    | ⟨1, _⟩ => show win3_0.index t (1 : Fin 2) * 128 + 1 * k.val = k.val; omega
  · intro k
    unfold iblk3
    rw [View.read_apply]
    show V c main_v71 _ = _
    refine (congrArg (V c main_v71) (funext fun a => Fin.ext ?_)).trans (hb k)
    match a with
    | ⟨0, _⟩ => show win3_1.index t (0 : Fin 2) * 1 + 1 * 0 = 0; omega
    | ⟨1, _⟩ => show win3_1.index t (1 : Fin 2) * 128 + 1 * k.val = k.val; omega
  · intro k
    unfold iblk3
    rw [View.read_apply]
    show V c main_arg8 _ = V c main_arg8 _
    refine congrArg (V c main_arg8) (funext fun a => Fin.ext ?_)
    match a with
    | ⟨0, _⟩ => show win3_2.index t (0 : Fin 2) * 128 + 1 * k.val = k.val; omega
    | ⟨1, _⟩ => show win3_2.index t (1 : Fin 2) * 64 + 1 * (j 1).val = (j 1).val; omega
  · show win3_3.index t (1 : Fin 2) * 64 + 1 * (j 1).val = (j 1).val; omega

/-- An index of the array is in point `t`'s block iff each coordinate is in the block's range on its axis. -/
theorem mem_blk (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v72).slice (win3_3.rect t)).set ↔ _
  rw [View.set_slice_whole, Rect.mem_set_unit]
  exact Iff.rfl

/-- Row `r` of the array lies in the block of point `r / 10000`. -/
theorem cover (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 10 := N_3
  have ht : (i 0).val / 10000 < cfg3.N := by rw [hN]; omega
  obtain ⟨-, -, -, -, -, -, e6, e7⟩ := idx_facts ⟨(i 0).val / 10000, ht⟩
  refine ⟨⟨(i 0).val / 10000, ht⟩, flush3_3 _, ?_⟩
  rw [mem_blk]
  intro a
  match a with
  | ⟨0, _⟩ =>
    show win3_3.index ⟨(i 0).val / 10000, ht⟩ (0 : Fin 2) * 10000 ≤ (i 0).val ∧ (i 0).val < win3_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win3_3.index ⟨(i 0).val / 10000, ht⟩ (1 : Fin 2) * 64 ≤ (i 1).val ∧ (i 1).val < win3_3.index ⟨(i 0).val / 10000, ht⟩ (1 : Fin 2) * 64 + 64
    rw [e7]; omega

/-- The launch's result array ends holding `(max (s + b) 0) · W` of its operands as the launch finds them. -/
theorem final (c : Dev nD) (b : (⟨S128, .f32⟩ : BufTy).Contents (Elt Ideal))
    (hb : ∀ k : Fin 128, V c main_v71 (ix2 0 k) = b (ix1 k)) :
    (dat3 V c).arrAt 3 cfg3.N = Cert.Gcn.lin64 (Cert.Gcn.biasRelu128 (V c main_v70) b) (V c main_arg8) :=
  (dat3 V c).arrAt_eq_of_cover 3 _ (fun t _ => flushed_eq V c b hb t) cover

end Cert.KernelIdeal.Region3
end
-- ==== Proof.Region4.lean ====
/-
  The last launch: add a bias row and clamp below at zero — tiled over blocks of rows.

  At grid point `t` (of ten) the launch reads rows `10000 t … 10000 t + 9999` of a [100000, 64] matrix `s` and the
  whole [1, 64] bias block, and writes `max (s + bias) 0` back as the same rows of the result. The operation is entry
  by entry, the bias read at the entry's lane whatever the row: so the block written at point `t` is the block of rows
  of `max (s + b) 0` formed on the WHOLE matrix (`flushed_eq`); the ten blocks cover the result (`cover`); hence the
  result array ends holding it (`final`) — for ANY contents `V` of the buffers at the launch's entry, `b` being any
  length-64 vector that the [1, 64] bias block repeats lane by lane.
-/
import proofs.«115128_j47227460387599_1_alg».proof.Proof.Spec
import proofs.«115128_j47227460387599_1_alg».proof.Proof.BiasRelu
import proofs.«115128_j47227460387599_1_alg».proof.Proof.Gen.KernelIdeal.Frame
import Idealize.ShloMosaic.Lib.Pipeline.Value
import Idealize.ShloMosaic.Lib.ValueIdx
import Idealize.ShloMosaic.PureOps.Ideal

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen

variable (V : (c : Dev nD) → (b : Ref sig .tc) → Buf (Elt Ideal) ((c : Thread nD τ).loc b))

/-- The zero offset, as the constant function. -/
theorem hz : (![0, 0] : Fin 2 → Nat) = fun _ => 0 := funext fun a => by fin_cases a <;> rfl

/-- The index maps, decided over the ten grid points: the operand and the result move with the point along the rows;
    the bias block stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- An entry of the block's result is the entry of the whole matrix's result on the block's row of the whole matrix. -/
theorem block_entry (x0 : Vec Ideal S10000x64 .f32) (x1 : Vec Ideal S1x64 .f32)
    (S : (⟨S100000x64, .f32⟩ : BufTy).Contents (Elt Ideal)) (b : (⟨S64, .f32⟩ : BufTy).Contents (Elt Ideal))
    (j : S10000x64.Idx) (i : S100000x64.Idx)
    (hX : x0 (ix2 (j 0) (j 1)) = S (ix2 (i 0) (j 1))) (hB : x1 (ix2 0 (j 1)) = b (ix1 (j 1)))
    (hi1 : (i 1).val = (j 1).val) :
    k4_pay1 x0 x1 j = Cert.Gcn.biasRelu64 S b i := by
  have hj : j = ix2 (j 0) (j 1) := eq_ix2 j
  have hi : i = ix2 (i 0) (j 1) := (eq_ix2 i).trans (congrArg (ix2 (i 0)) (Fin.ext hi1))
  rw [hj, hi]
  unfold k4_pay1 Cert.Gcn.biasRelu64
  exact Cert.BiasRelu.entry64 (F := Ideal) x0 x1 S b _ _ _ _ _ _ (j 0) (i 0) (j 1) hX hB

/-- What point `t` writes back is block `t` of `max (s + b) 0` of the operand as the launch finds it. -/
theorem flushed_eq (c : Dev nD) (b : (⟨S64, .f32⟩ : BufTy).Contents (Elt Ideal))
    (hb : ∀ k : Fin 64, V c main_v86 (ix2 0 k) = b (ix1 k)) (t : Fin cfg4.N) :
    (dat4 V c).flushed 2 t = ((cfg4.win 2).blk t).view.read (Elt Ideal) (Cert.Gcn.biasRelu64 (V c main_v85) b) := by
  show (cfg4.win 2).cut (grid4.coords t) ((dat4 V c).after 2 t) = _
  rw [after4_2]
  unfold out4_2
  rw [View.canon_unit_zero hz]
  simp only [View.ld_unit_zero (S := S10000x64) hz, View.ld_unit_zero (S := S1x64) hz]
  obtain ⟨e0, e1, e2, e3, e4, e5⟩ := idx_facts t
  funext j
  show k4_pay1 (iblk4 V c 0 t) (iblk4 V c 1 t) j = Cert.Gcn.biasRelu64 (V c main_v85) b (((cfg4.win 2).blk t).view.emb j)
  refine block_entry (iblk4 V c 0 t) (iblk4 V c 1 t) (V c main_v85) b j (((cfg4.win 2).blk t).view.emb j) ?_ ?_ ?_
  · unfold iblk4
    rw [View.read_apply]
    show V c main_v85 _ = V c main_v85 _
    refine congrArg (V c main_v85) (funext fun a => Fin.ext ?_)
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * (j 1).val = (j 1).val; omega
  · unfold iblk4
    rw [View.read_apply]
    show V c main_v86 _ = _
    refine (congrArg (V c main_v86) (funext fun a => Fin.ext ?_)).trans (hb (j 1))
    match a with
    | ⟨0, _⟩ => show win4_1.index t (0 : Fin 2) * 1 + 1 * 0 = 0; omega
    | ⟨1, _⟩ => show win4_1.index t (1 : Fin 2) * 64 + 1 * (j 1).val = (j 1).val; omega
  · show win4_2.index t (1 : Fin 2) * 64 + 1 * (j 1).val = (j 1).val; omega

/-- An index of the array is in point `t`'s block iff each coordinate is in the block's range on its axis. -/
theorem mem_blk (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v87).slice (win4_2.rect t)).set ↔ _
  rw [View.set_slice_whole, Rect.mem_set_unit]
  exact Iff.rfl

/-- Row `r` of the array lies in the block of point `r / 10000`. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  have ht : (i 0).val / 10000 < cfg4.N := by rw [hN]; omega
  obtain ⟨-, -, -, -, e4, e5⟩ := idx_facts ⟨(i 0).val / 10000, ht⟩
  refine ⟨⟨(i 0).val / 10000, ht⟩, flush4_2 _, ?_⟩
  rw [mem_blk]
  intro a
  match a with
  | ⟨0, _⟩ =>
    show win4_2.index ⟨(i 0).val / 10000, ht⟩ (0 : Fin 2) * 10000 ≤ (i 0).val ∧ (i 0).val < win4_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win4_2.index ⟨(i 0).val / 10000, ht⟩ (1 : Fin 2) * 64 ≤ (i 1).val ∧ (i 1).val < win4_2.index ⟨(i 0).val / 10000, ht⟩ (1 : Fin 2) * 64 + 64
    rw [e5]; omega

/-- The launch's result array ends holding `max (s + b) 0` of its operand as the launch finds it. -/
theorem final (c : Dev nD) (b : (⟨S64, .f32⟩ : BufTy).Contents (Elt Ideal))
    (hb : ∀ k : Fin 64, V c main_v86 (ix2 0 k) = b (ix1 k)) :
    (dat4 V c).arrAt 2 cfg4.N = Cert.Gcn.biasRelu64 (V c main_v85) b :=
  (dat4 V c).arrAt_eq_of_cover 2 _ (fun t _ => flushed_eq V c b hb t) cover

end Cert.KernelIdeal.Region4
end
-- ==== Proof.KernelValue.lean ====
/-
  The kernel program's result is the four rounds of `Cert.Gcn.gcn` of its arguments.

  The buffer contents are followed from the launch memory to the return, boundary by boundary (`Gen.W0` … `Gen.W10`:
  a stretch of host operations, then a launch, five times). Across a stretch a buffer is either computed — the
  stretch's own lemma says from what — or untouched; across a launch the launch's result array ends holding the launch's
  function of its operands (`Region0.final` … `Region4.final`) and every other buffer is untouched. So:
  * the edge sources, destinations and weights, built by the first stretch, are still there when each later stretch
    reads them, and each argument is still as launched when its launch or stretch reads it (`at<j>_<buffer>`);
  * the first launch leaves `x · W_in`; each stretch then leaves the neighbourhood sum of the last product and the next
    bias as a one-row matrix; each middle launch leaves `(max (sum + bias) 0) · W`; the last leaves `max (sum + bias) 0`.
  Composed, the result array at the return is `gcn` of the arguments (`result_is_gcn`).
-/
import proofs.«115128_j47227460387599_1_alg».proof.Proof.Spec
import proofs.«115128_j47227460387599_1_alg».proof.Proof.HostStretch
import proofs.«115128_j47227460387599_1_alg».proof.Proof.Region0
import proofs.«115128_j47227460387599_1_alg».proof.Proof.Region1
import proofs.«115128_j47227460387599_1_alg».proof.Proof.Region2
import proofs.«115128_j47227460387599_1_alg».proof.Proof.Region3
import proofs.«115128_j47227460387599_1_alg».proof.Proof.Region4
import proofs.«115128_j47227460387599_1_alg».proof.Proof.Gen.KernelIdeal.Frame

set_option maxRecDepth 16384

noncomputable section

open Idealize.ShloMosaic Idealize.ShloMosaic.TcCoe Idealize.SL.Sem Idealize.ShloMosaic.ValueIdx

namespace Cert.KernelIdeal.Value

open Cert.KernelIdeal Cert.KernelIdeal.Gen Cert.KernelIdeal.HostStretch

variable (m : (ℓ : Loc nD τ sig) → Buf (Elt Ideal) ℓ) (ρ : Dev nD → PrngReg) (c : Dev nD)

/-! ## What is carried along: the graph's edges and weights, and the arguments not yet read -/

/-- The edge sources (self loops appended) at each boundary up to the last stretch's start. -/
theorem at1_main_v3 : W1 m ρ c (Proc.devRef .tc main_v3) = (Cert.Gcn.srcOf (m ((c.tc : Thread nD τ).loc main_arg1))) :=
  h0_src (W0 m ρ c)
theorem at2_main_v3 : W2 m ρ c (Proc.devRef .tc main_v3) = (Cert.Gcn.srcOf (m ((c.tc : Thread nD τ).loc main_arg1))) :=
  (W2_of_ne m ρ c main_v3 (by decide)).trans (at1_main_v3 m ρ c)
theorem at3_main_v3 : W3 m ρ c (Proc.devRef .tc main_v3) = (Cert.Gcn.srcOf (m ((c.tc : Thread nD τ).loc main_arg1))) :=
  (h1_keep_main_v3 (W2 m ρ c)).trans (at2_main_v3 m ρ c)
theorem at4_main_v3 : W4 m ρ c (Proc.devRef .tc main_v3) = (Cert.Gcn.srcOf (m ((c.tc : Thread nD τ).loc main_arg1))) :=
  (W4_of_ne m ρ c main_v3 (by decide)).trans (at3_main_v3 m ρ c)
theorem at5_main_v3 : W5 m ρ c (Proc.devRef .tc main_v3) = (Cert.Gcn.srcOf (m ((c.tc : Thread nD τ).loc main_arg1))) :=
  (h2_keep_main_v3 (W4 m ρ c)).trans (at4_main_v3 m ρ c)
theorem at6_main_v3 : W6 m ρ c (Proc.devRef .tc main_v3) = (Cert.Gcn.srcOf (m ((c.tc : Thread nD τ).loc main_arg1))) :=
  (W6_of_ne m ρ c main_v3 (by decide)).trans (at5_main_v3 m ρ c)
theorem at7_main_v3 : W7 m ρ c (Proc.devRef .tc main_v3) = (Cert.Gcn.srcOf (m ((c.tc : Thread nD τ).loc main_arg1))) :=
  (h3_keep_main_v3 (W6 m ρ c)).trans (at6_main_v3 m ρ c)
theorem at8_main_v3 : W8 m ρ c (Proc.devRef .tc main_v3) = (Cert.Gcn.srcOf (m ((c.tc : Thread nD τ).loc main_arg1))) :=
  (W8_of_ne m ρ c main_v3 (by decide)).trans (at7_main_v3 m ρ c)

/-- The edge destinations at each boundary. -/
theorem at1_main_v6 : W1 m ρ c (Proc.devRef .tc main_v6) = (Cert.Gcn.dstOf (m ((c.tc : Thread nD τ).loc main_arg1))) :=
  h0_dst (W0 m ρ c)
theorem at2_main_v6 : W2 m ρ c (Proc.devRef .tc main_v6) = (Cert.Gcn.dstOf (m ((c.tc : Thread nD τ).loc main_arg1))) :=
  (W2_of_ne m ρ c main_v6 (by decide)).trans (at1_main_v6 m ρ c)
theorem at3_main_v6 : W3 m ρ c (Proc.devRef .tc main_v6) = (Cert.Gcn.dstOf (m ((c.tc : Thread nD τ).loc main_arg1))) :=
  (h1_keep_main_v6 (W2 m ρ c)).trans (at2_main_v6 m ρ c)
theorem at4_main_v6 : W4 m ρ c (Proc.devRef .tc main_v6) = (Cert.Gcn.dstOf (m ((c.tc : Thread nD τ).loc main_arg1))) :=
  (W4_of_ne m ρ c main_v6 (by decide)).trans (at3_main_v6 m ρ c)
theorem at5_main_v6 : W5 m ρ c (Proc.devRef .tc main_v6) = (Cert.Gcn.dstOf (m ((c.tc : Thread nD τ).loc main_arg1))) :=
  (h2_keep_main_v6 (W4 m ρ c)).trans (at4_main_v6 m ρ c)
theorem at6_main_v6 : W6 m ρ c (Proc.devRef .tc main_v6) = (Cert.Gcn.dstOf (m ((c.tc : Thread nD τ).loc main_arg1))) :=
  (W6_of_ne m ρ c main_v6 (by decide)).trans (at5_main_v6 m ρ c)
theorem at7_main_v6 : W7 m ρ c (Proc.devRef .tc main_v6) = (Cert.Gcn.dstOf (m ((c.tc : Thread nD τ).loc main_arg1))) :=
  (h3_keep_main_v6 (W6 m ρ c)).trans (at6_main_v6 m ρ c)
theorem at8_main_v6 : W8 m ρ c (Proc.devRef .tc main_v6) = (Cert.Gcn.dstOf (m ((c.tc : Thread nD τ).loc main_arg1))) :=
  (W8_of_ne m ρ c main_v6 (by decide)).trans (at7_main_v6 m ρ c)

/-- The edge weights at each boundary. -/
theorem at1_main_v26 : W1 m ρ c (Proc.devRef .tc main_v26) = (Cert.Gcn.normOf (m ((c.tc : Thread nD τ).loc main_arg1))) :=
  h0_norm (W0 m ρ c)
theorem at2_main_v26 : W2 m ρ c (Proc.devRef .tc main_v26) = (Cert.Gcn.normOf (m ((c.tc : Thread nD τ).loc main_arg1))) :=
  (W2_of_ne m ρ c main_v26 (by decide)).trans (at1_main_v26 m ρ c)
theorem at3_main_v26 : W3 m ρ c (Proc.devRef .tc main_v26) = (Cert.Gcn.normOf (m ((c.tc : Thread nD τ).loc main_arg1))) :=
  (h1_keep_main_v26 (W2 m ρ c)).trans (at2_main_v26 m ρ c)
theorem at4_main_v26 : W4 m ρ c (Proc.devRef .tc main_v26) = (Cert.Gcn.normOf (m ((c.tc : Thread nD τ).loc main_arg1))) :=
  (W4_of_ne m ρ c main_v26 (by decide)).trans (at3_main_v26 m ρ c)
theorem at5_main_v26 : W5 m ρ c (Proc.devRef .tc main_v26) = (Cert.Gcn.normOf (m ((c.tc : Thread nD τ).loc main_arg1))) :=
  (h2_keep_main_v26 (W4 m ρ c)).trans (at4_main_v26 m ρ c)
theorem at6_main_v26 : W6 m ρ c (Proc.devRef .tc main_v26) = (Cert.Gcn.normOf (m ((c.tc : Thread nD τ).loc main_arg1))) :=
  (W6_of_ne m ρ c main_v26 (by decide)).trans (at5_main_v26 m ρ c)
theorem at7_main_v26 : W7 m ρ c (Proc.devRef .tc main_v26) = (Cert.Gcn.normOf (m ((c.tc : Thread nD τ).loc main_arg1))) :=
  (h3_keep_main_v26 (W6 m ρ c)).trans (at6_main_v26 m ρ c)
theorem at8_main_v26 : W8 m ρ c (Proc.devRef .tc main_v26) = (Cert.Gcn.normOf (m ((c.tc : Thread nD τ).loc main_arg1))) :=
  (W8_of_ne m ρ c main_v26 (by decide)).trans (at7_main_v26 m ρ c)

/-- The node features, still as launched when the first launch reads them. -/
theorem at1_main_arg0 : W1 m ρ c (Proc.devRef .tc main_arg0) = (m ((c.tc : Thread nD τ).loc main_arg0)) :=
  h0_keep_main_arg0 (W0 m ρ c)

/-- The first weight, still as launched when the first launch reads it. -/
theorem at1_main_arg2 : W1 m ρ c (Proc.devRef .tc main_arg2) = (m ((c.tc : Thread nD τ).loc main_arg2)) :=
  h0_keep_main_arg2 (W0 m ρ c)

/-- The first bias, still as launched when the second stretch reads it. -/
theorem at1_main_arg3 : W1 m ρ c (Proc.devRef .tc main_arg3) = (m ((c.tc : Thread nD τ).loc main_arg3)) :=
  h0_keep_main_arg3 (W0 m ρ c)
theorem at2_main_arg3 : W2 m ρ c (Proc.devRef .tc main_arg3) = (m ((c.tc : Thread nD τ).loc main_arg3)) :=
  (W2_of_ne m ρ c main_arg3 (by decide)).trans (at1_main_arg3 m ρ c)

/-- The second weight, still as launched when the second launch reads it. -/
theorem at1_main_arg4 : W1 m ρ c (Proc.devRef .tc main_arg4) = (m ((c.tc : Thread nD τ).loc main_arg4)) :=
  h0_keep_main_arg4 (W0 m ρ c)
theorem at2_main_arg4 : W2 m ρ c (Proc.devRef .tc main_arg4) = (m ((c.tc : Thread nD τ).loc main_arg4)) :=
  (W2_of_ne m ρ c main_arg4 (by decide)).trans (at1_main_arg4 m ρ c)
theorem at3_main_arg4 : W3 m ρ c (Proc.devRef .tc main_arg4) = (m ((c.tc : Thread nD τ).loc main_arg4)) :=
  (h1_keep_main_arg4 (W2 m ρ c)).trans (at2_main_arg4 m ρ c)

/-- The second bias, still as launched when the third stretch reads it. -/
theorem at1_main_arg5 : W1 m ρ c (Proc.devRef .tc main_arg5) = (m ((c.tc : Thread nD τ).loc main_arg5)) :=
  h0_keep_main_arg5 (W0 m ρ c)
theorem at2_main_arg5 : W2 m ρ c (Proc.devRef .tc main_arg5) = (m ((c.tc : Thread nD τ).loc main_arg5)) :=
  (W2_of_ne m ρ c main_arg5 (by decide)).trans (at1_main_arg5 m ρ c)
theorem at3_main_arg5 : W3 m ρ c (Proc.devRef .tc main_arg5) = (m ((c.tc : Thread nD τ).loc main_arg5)) :=
  (h1_keep_main_arg5 (W2 m ρ c)).trans (at2_main_arg5 m ρ c)
theorem at4_main_arg5 : W4 m ρ c (Proc.devRef .tc main_arg5) = (m ((c.tc : Thread nD τ).loc main_arg5)) :=
  (W4_of_ne m ρ c main_arg5 (by decide)).trans (at3_main_arg5 m ρ c)

/-- The third weight, still as launched when the third launch reads it. -/
theorem at1_main_arg6 : W1 m ρ c (Proc.devRef .tc main_arg6) = (m ((c.tc : Thread nD τ).loc main_arg6)) :=
  h0_keep_main_arg6 (W0 m ρ c)
theorem at2_main_arg6 : W2 m ρ c (Proc.devRef .tc main_arg6) = (m ((c.tc : Thread nD τ).loc main_arg6)) :=
  (W2_of_ne m ρ c main_arg6 (by decide)).trans (at1_main_arg6 m ρ c)
theorem at3_main_arg6 : W3 m ρ c (Proc.devRef .tc main_arg6) = (m ((c.tc : Thread nD τ).loc main_arg6)) :=
  (h1_keep_main_arg6 (W2 m ρ c)).trans (at2_main_arg6 m ρ c)
theorem at4_main_arg6 : W4 m ρ c (Proc.devRef .tc main_arg6) = (m ((c.tc : Thread nD τ).loc main_arg6)) :=
  (W4_of_ne m ρ c main_arg6 (by decide)).trans (at3_main_arg6 m ρ c)
theorem at5_main_arg6 : W5 m ρ c (Proc.devRef .tc main_arg6) = (m ((c.tc : Thread nD τ).loc main_arg6)) :=
  (h2_keep_main_arg6 (W4 m ρ c)).trans (at4_main_arg6 m ρ c)

/-- The third bias, still as launched when the fourth stretch reads it. -/
theorem at1_main_arg7 : W1 m ρ c (Proc.devRef .tc main_arg7) = (m ((c.tc : Thread nD τ).loc main_arg7)) :=
  h0_keep_main_arg7 (W0 m ρ c)
theorem at2_main_arg7 : W2 m ρ c (Proc.devRef .tc main_arg7) = (m ((c.tc : Thread nD τ).loc main_arg7)) :=
  (W2_of_ne m ρ c main_arg7 (by decide)).trans (at1_main_arg7 m ρ c)
theorem at3_main_arg7 : W3 m ρ c (Proc.devRef .tc main_arg7) = (m ((c.tc : Thread nD τ).loc main_arg7)) :=
  (h1_keep_main_arg7 (W2 m ρ c)).trans (at2_main_arg7 m ρ c)
theorem at4_main_arg7 : W4 m ρ c (Proc.devRef .tc main_arg7) = (m ((c.tc : Thread nD τ).loc main_arg7)) :=
  (W4_of_ne m ρ c main_arg7 (by decide)).trans (at3_main_arg7 m ρ c)
theorem at5_main_arg7 : W5 m ρ c (Proc.devRef .tc main_arg7) = (m ((c.tc : Thread nD τ).loc main_arg7)) :=
  (h2_keep_main_arg7 (W4 m ρ c)).trans (at4_main_arg7 m ρ c)
theorem at6_main_arg7 : W6 m ρ c (Proc.devRef .tc main_arg7) = (m ((c.tc : Thread nD τ).loc main_arg7)) :=
  (W6_of_ne m ρ c main_arg7 (by decide)).trans (at5_main_arg7 m ρ c)

/-- The fourth weight, still as launched when the fourth launch reads it. -/
theorem at1_main_arg8 : W1 m ρ c (Proc.devRef .tc main_arg8) = (m ((c.tc : Thread nD τ).loc main_arg8)) :=
  h0_keep_main_arg8 (W0 m ρ c)
theorem at2_main_arg8 : W2 m ρ c (Proc.devRef .tc main_arg8) = (m ((c.tc : Thread nD τ).loc main_arg8)) :=
  (W2_of_ne m ρ c main_arg8 (by decide)).trans (at1_main_arg8 m ρ c)
theorem at3_main_arg8 : W3 m ρ c (Proc.devRef .tc main_arg8) = (m ((c.tc : Thread nD τ).loc main_arg8)) :=
  (h1_keep_main_arg8 (W2 m ρ c)).trans (at2_main_arg8 m ρ c)
theorem at4_main_arg8 : W4 m ρ c (Proc.devRef .tc main_arg8) = (m ((c.tc : Thread nD τ).loc main_arg8)) :=
  (W4_of_ne m ρ c main_arg8 (by decide)).trans (at3_main_arg8 m ρ c)
theorem at5_main_arg8 : W5 m ρ c (Proc.devRef .tc main_arg8) = (m ((c.tc : Thread nD τ).loc main_arg8)) :=
  (h2_keep_main_arg8 (W4 m ρ c)).trans (at4_main_arg8 m ρ c)
theorem at6_main_arg8 : W6 m ρ c (Proc.devRef .tc main_arg8) = (m ((c.tc : Thread nD τ).loc main_arg8)) :=
  (W6_of_ne m ρ c main_arg8 (by decide)).trans (at5_main_arg8 m ρ c)
theorem at7_main_arg8 : W7 m ρ c (Proc.devRef .tc main_arg8) = (m ((c.tc : Thread nD τ).loc main_arg8)) :=
  (h3_keep_main_arg8 (W6 m ρ c)).trans (at6_main_arg8 m ρ c)

/-- The fourth bias, still as launched when the fifth stretch reads it. -/
theorem at1_main_arg9 : W1 m ρ c (Proc.devRef .tc main_arg9) = (m ((c.tc : Thread nD τ).loc main_arg9)) :=
  h0_keep_main_arg9 (W0 m ρ c)
theorem at2_main_arg9 : W2 m ρ c (Proc.devRef .tc main_arg9) = (m ((c.tc : Thread nD τ).loc main_arg9)) :=
  (W2_of_ne m ρ c main_arg9 (by decide)).trans (at1_main_arg9 m ρ c)
theorem at3_main_arg9 : W3 m ρ c (Proc.devRef .tc main_arg9) = (m ((c.tc : Thread nD τ).loc main_arg9)) :=
  (h1_keep_main_arg9 (W2 m ρ c)).trans (at2_main_arg9 m ρ c)
theorem at4_main_arg9 : W4 m ρ c (Proc.devRef .tc main_arg9) = (m ((c.tc : Thread nD τ).loc main_arg9)) :=
  (W4_of_ne m ρ c main_arg9 (by decide)).trans (at3_main_arg9 m ρ c)
theorem at5_main_arg9 : W5 m ρ c (Proc.devRef .tc main_arg9) = (m ((c.tc : Thread nD τ).loc main_arg9)) :=
  (h2_keep_main_arg9 (W4 m ρ c)).trans (at4_main_arg9 m ρ c)
theorem at6_main_arg9 : W6 m ρ c (Proc.devRef .tc main_arg9) = (m ((c.tc : Thread nD τ).loc main_arg9)) :=
  (W6_of_ne m ρ c main_arg9 (by decide)).trans (at5_main_arg9 m ρ c)
theorem at7_main_arg9 : W7 m ρ c (Proc.devRef .tc main_arg9) = (m ((c.tc : Thread nD τ).loc main_arg9)) :=
  (h3_keep_main_arg9 (W6 m ρ c)).trans (at6_main_arg9 m ρ c)
theorem at8_main_arg9 : W8 m ρ c (Proc.devRef .tc main_arg9) = (m ((c.tc : Thread nD τ).loc main_arg9)) :=
  (W8_of_ne m ρ c main_arg9 (by decide)).trans (at7_main_arg9 m ρ c)

/-! ## The values, launch by launch -/

/-- After the first launch: `x · W_in`. -/
abbrev t1 : (⟨Cert.ReferenceIdeal.S100000x128, .f32⟩ : BufTy).Contents (Elt Ideal) := (Cert.Gcn.lin128 (m ((c.tc : Thread nD τ).loc main_arg0)) (m ((c.tc : Thread nD τ).loc main_arg2)))
/-- Its neighbourhood sum. -/
abbrev s1 : (⟨Cert.ReferenceIdeal.S100000x128, .f32⟩ : BufTy).Contents (Elt Ideal) := Cert.Gcn.agg128 (m ((c.tc : Thread nD τ).loc main_arg1)) (t1 m c)
/-- After the second launch. -/
abbrev t2 : (⟨Cert.ReferenceIdeal.S100000x128, .f32⟩ : BufTy).Contents (Elt Ideal) := Cert.Gcn.lin128 (Cert.Gcn.biasRelu128 (s1 m c) (m ((c.tc : Thread nD τ).loc main_arg3))) (m ((c.tc : Thread nD τ).loc main_arg4))
/-- Its neighbourhood sum. -/
abbrev s2 : (⟨Cert.ReferenceIdeal.S100000x128, .f32⟩ : BufTy).Contents (Elt Ideal) := Cert.Gcn.agg128 (m ((c.tc : Thread nD τ).loc main_arg1)) (t2 m c)
/-- After the third launch. -/
abbrev t3 : (⟨Cert.ReferenceIdeal.S100000x128, .f32⟩ : BufTy).Contents (Elt Ideal) := Cert.Gcn.lin128 (Cert.Gcn.biasRelu128 (s2 m c) (m ((c.tc : Thread nD τ).loc main_arg5))) (m ((c.tc : Thread nD τ).loc main_arg6))
/-- Its neighbourhood sum. -/
abbrev s3 : (⟨Cert.ReferenceIdeal.S100000x128, .f32⟩ : BufTy).Contents (Elt Ideal) := Cert.Gcn.agg128 (m ((c.tc : Thread nD τ).loc main_arg1)) (t3 m c)
/-- After the fourth launch. -/
abbrev t4 : (⟨Cert.ReferenceIdeal.S100000x64, .f32⟩ : BufTy).Contents (Elt Ideal) := Cert.Gcn.lin64 (Cert.Gcn.biasRelu128 (s3 m c) (m ((c.tc : Thread nD τ).loc main_arg7))) (m ((c.tc : Thread nD τ).loc main_arg8))
/-- Its neighbourhood sum. -/
abbrev s4 : (⟨Cert.ReferenceIdeal.S100000x64, .f32⟩ : BufTy).Contents (Elt Ideal) := Cert.Gcn.agg64 (m ((c.tc : Thread nD τ).loc main_arg1)) (t4 m c)

/-- The first launch leaves the dense product of `x` and the first weight. -/
theorem at2_t1 : W2 m ρ c (Proc.devRef .tc main_v27) = t1 m c :=
  (W2_arr m ρ c 2).trans ((Region0.final (V1 m ρ) c).trans
    (congrArg₂ Cert.Gcn.lin128 (at1_main_arg0 m ρ c) (at1_main_arg2 m ρ c)))

/-- The second stretch leaves its neighbourhood sum … -/
theorem at3_s1 : W3 m ρ c (Proc.devRef .tc main_v40) = s1 m c :=
  (h1_agg (W2 m ρ c)).trans (by
    rw [at2_main_v3 m ρ c, at2_main_v6 m ρ c, at2_main_v26 m ρ c, at2_t1 m ρ c]
    exact Cert.Gcn.agg128_def _ _)
/-- … and the first bias as a one-row matrix. -/
theorem at3_bias (k : Fin 128) : W3 m ρ c (Proc.devRef .tc main_v41) (ix2 0 k) = (m ((c.tc : Thread nD τ).loc main_arg3)) (ix1 k) :=
  (h1_bias (W2 m ρ c) k).trans (congrFun (at2_main_arg3 m ρ c) (ix1 k))

/-- The second launch. -/
theorem at4_t2 : W4 m ρ c (Proc.devRef .tc main_v42) = t2 m c :=
  (W4_arr m ρ c 3).trans ((Region1.final (V3 m ρ) c (m ((c.tc : Thread nD τ).loc main_arg3)) (at3_bias m ρ c)).trans
    (congrArg₂ (fun s w => Cert.Gcn.lin128 (Cert.Gcn.biasRelu128 s (m ((c.tc : Thread nD τ).loc main_arg3))) w) (at3_s1 m ρ c) (at3_main_arg4 m ρ c)))

/-- The third stretch. -/
theorem at5_s2 : W5 m ρ c (Proc.devRef .tc main_v55) = s2 m c :=
  (h2_agg (W4 m ρ c)).trans (by
    rw [at4_main_v3 m ρ c, at4_main_v6 m ρ c, at4_main_v26 m ρ c, at4_t2 m ρ c]
    exact Cert.Gcn.agg128_def _ _)
/-- … and the second bias as a one-row matrix. -/
theorem at5_bias (k : Fin 128) : W5 m ρ c (Proc.devRef .tc main_v56) (ix2 0 k) = (m ((c.tc : Thread nD τ).loc main_arg5)) (ix1 k) :=
  (h2_bias (W4 m ρ c) k).trans (congrFun (at4_main_arg5 m ρ c) (ix1 k))

/-- The third launch. -/
theorem at6_t3 : W6 m ρ c (Proc.devRef .tc main_v57) = t3 m c :=
  (W6_arr m ρ c 3).trans ((Region2.final (V5 m ρ) c (m ((c.tc : Thread nD τ).loc main_arg5)) (at5_bias m ρ c)).trans
    (congrArg₂ (fun s w => Cert.Gcn.lin128 (Cert.Gcn.biasRelu128 s (m ((c.tc : Thread nD τ).loc main_arg5))) w) (at5_s2 m ρ c) (at5_main_arg6 m ρ c)))

/-- The fourth stretch. -/
theorem at7_s3 : W7 m ρ c (Proc.devRef .tc main_v70) = s3 m c :=
  (h3_agg (W6 m ρ c)).trans (by
    rw [at6_main_v3 m ρ c, at6_main_v6 m ρ c, at6_main_v26 m ρ c, at6_t3 m ρ c]
    exact Cert.Gcn.agg128_def _ _)
/-- … and the third bias as a one-row matrix. -/
theorem at7_bias (k : Fin 128) : W7 m ρ c (Proc.devRef .tc main_v71) (ix2 0 k) = (m ((c.tc : Thread nD τ).loc main_arg7)) (ix1 k) :=
  (h3_bias (W6 m ρ c) k).trans (congrFun (at6_main_arg7 m ρ c) (ix1 k))

/-- The fourth launch. -/
theorem at8_t4 : W8 m ρ c (Proc.devRef .tc main_v72) = t4 m c :=
  (W8_arr m ρ c 3).trans ((Region3.final (V7 m ρ) c (m ((c.tc : Thread nD τ).loc main_arg7)) (at7_bias m ρ c)).trans
    (congrArg₂ (fun s w => Cert.Gcn.lin64 (Cert.Gcn.biasRelu128 s (m ((c.tc : Thread nD τ).loc main_arg7))) w) (at7_s3 m ρ c) (at7_main_arg8 m ρ c)))

/-- The fifth stretch. -/
theorem at9_s4 : W9 m ρ c (Proc.devRef .tc main_v85) = s4 m c :=
  (h4_agg (W8 m ρ c)).trans (by
    rw [at8_main_v3 m ρ c, at8_main_v6 m ρ c, at8_main_v26 m ρ c, at8_t4 m ρ c]
    exact Cert.Gcn.agg64_def _ _)
/-- … and the fourth bias as a one-row matrix. -/
theorem at9_bias (k : Fin 64) : W9 m ρ c (Proc.devRef .tc main_v86) (ix2 0 k) = (m ((c.tc : Thread nD τ).loc main_arg9)) (ix1 k) :=
  (h4_bias (W8 m ρ c) k).trans (congrFun (at8_main_arg9 m ρ c) (ix1 k))

/-- The last launch, and with it the whole program: the result array at the return is `gcn` of the arguments. -/
theorem result_is_gcn : W10 m ρ c (Proc.devRef .tc main_v87)
    = Cert.Gcn.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (W10_arr m ρ c 2).trans ((Region4.final (V9 m ρ) c (m ((c.tc : Thread nD τ).loc main_arg9)) (at9_bias m ρ c)).trans
    ((congrArg (fun s => Cert.Gcn.biasRelu64 s (m ((c.tc : Thread nD τ).loc main_arg9))) (at9_s4 m ρ c)).trans (Cert.Gcn.gcn_def _ _ _ _ _ _ _ _ _ _)))

end Cert.KernelIdeal.Value
end
-- ==== Proof.RefIsGcn.lean ====
/-
  The reference's result is the four rounds of `Cert.Gcn.gcn` of its arguments: the host program's composed term,
  read with the pieces named, is that function letter for letter.
-/
import proofs.«115128_j47227460387599_1_alg».proof.Proof.Spec
import proofs.«115128_j47227460387599_1_alg».proof.Proof.Gen.ReferenceIdeal.Run

noncomputable section

namespace Cert.Gcn

open Idealize.ShloMosaic Idealize.ShloMosaic.TcCoe Idealize.SL.Sem Cert.ReferenceIdeal Cert.ReferenceIdeal.Gen

variable {F : FTy → Type} [FloatOps F]

set_option maxRecDepth 16384 in
/-- The reference's result array is `gcn` of the argument arrays. -/
theorem reference_is_gcn (m : (ℓ : Loc nD τ sig) → Buf (Elt F) ℓ) (c : Dev nD) :
    Cert.ReferenceIdeal.Value.res_main_v98 m c
      = gcn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.Value.res_main_v98 gcn biasRelu64 biasRelu128 agg64 agg128 aggFrom64 aggFrom128 lin64 lin128 normOf dinvOf dstCol wrapIx srcOf dstOf
  rfl

end Cert.Gcn

end
-- ==== Proof.lean ====
/-
  A four-round graph convolution: a kernel program against its reference, on the extended reals.

  Both programs take node features `x` (100000 × 128), an edge list (2 × 1600000: sources and destinations) and four
  weight/bias pairs, add one self loop per node, weigh every edge by `deg^(-1/2) (source) · deg^(-1/2) (destination)`, and
  apply four times
      h ↦ max (A · (h W) + b) 0,
  `A · t` the weighted neighbourhood sum. The reference does all of it with host operations. The kernel program keeps
  the graph preprocessing and the neighbourhood sums as the SAME host operations and moves the dense work into five
  launches tiled over blocks of 10000 rows: `x · W_in`; three times `(max (s + b) 0) · W` (the previous round's bias
  and clamp fused in front of the next product); and a last `max (s + b) 0`.

  Why the two agree on the extended reals, with nothing assumed of the inputs beyond their being there:
  * a change of float format is the identity, so the launches' products are products of the values themselves;
  * a row of a matrix product depends on that row of the left operand only, and bias-and-clamp acts entry by entry with
    the bias read at the entry's lane: so each launch's ten row blocks are the row blocks of ONE whole-matrix function of
    its operands, the same function the reference applies (`Region0` … `Region4`, over `LibRowBlockMatmul`, `BiasRelu`);
  * a product into a zero accumulator and the host's product are the same finite sum, and sums on the extended reals
    commute and associate without any finiteness;
  * everything else — edges, degrees, weights, gathers, scatter-adds — is the same host operations applied to equal
    values, carried as named functions (`Cert.Gcn`) and never opened.
  So both results are `Cert.Gcn.gcn` of the arguments: the kernel's by following its buffers from launch to return
  (`KernelRun`, `HostStretch`, `KernelValue`), the reference's by reading its composed term (`RefIsGcn`). The three
  frames are the programs' generated runs; the idealization's ledger is empty.
-/
import proofs.«115128_j47227460387599_1_alg».proof.Defs
import proofs.«115128_j47227460387599_1_alg».proof.Proof.Gen.Kernel
import proofs.«115128_j47227460387599_1_alg».proof.Proof.Gen.Kernel.Skeleton
import proofs.«115128_j47227460387599_1_alg».proof.Proof.Gen.Kernel.Launch
import proofs.«115128_j47227460387599_1_alg».proof.Proof.Gen.Kernel.Points
import proofs.«115128_j47227460387599_1_alg».proof.Proof.Gen.Kernel.Frame
import proofs.«115128_j47227460387599_1_alg».proof.Proof.Gen.KernelIdeal
import proofs.«115128_j47227460387599_1_alg».proof.Proof.Gen.KernelIdeal.Skeleton
import proofs.«115128_j47227460387599_1_alg».proof.Proof.Gen.KernelIdeal.Launch
import proofs.«115128_j47227460387599_1_alg».proof.Proof.Gen.KernelIdeal.Points
import proofs.«115128_j47227460387599_1_alg».proof.Proof.Gen.KernelIdeal.Frame
import proofs.«115128_j47227460387599_1_alg».proof.Proof.Gen.ReferenceIdeal
import proofs.«115128_j47227460387599_1_alg».proof.Proof.Gen.Pre_finite_inputs
import proofs.«115128_j47227460387599_1_alg».proof.Proof.Gen.ReferenceIdeal.Run
import proofs.«115128_j47227460387599_1_alg».proof.Proof.KernelRun
import proofs.«115128_j47227460387599_1_alg».proof.Proof.KernelValue
import proofs.«115128_j47227460387599_1_alg».proof.Proof.RefIsGcn
import Idealize.ShloMosaic.Adequacy
import Idealize.ShloMosaic.Init

set_option maxRecDepth 16384

noncomputable section

namespace Cert.Proof

open Idealize.ShloMosaic Idealize.SL.Sem

/-- The word-level kernel program runs and leaves its arguments: its generated frame. -/
theorem frame_k : Cert.frame_Kernel := fun m ρ _ => Cert.Kernel.Gen.frame m ρ

/-- The idealized kernel program runs and leaves its arguments: its generated frame. -/
theorem frame_ki : Cert.frame_KernelIdeal := fun m ρ _ => Cert.KernelIdeal.Gen.frame m ρ

/-- The reference runs and leaves its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at `gcn` of the arguments. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Value.result_is_gcn m ρ c), (h c).2⟩)
      (Cert.KernelIdeal.RunValue.run_last (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.Gcn.reference_is_gcn, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
